-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64x17 : Shape := ⟨4, ![64, 256, 64, 17]⟩
abbrev S1x17x256 : Shape := ⟨3, ![1, 17, 256]⟩
abbrev S256x256 : Shape := ⟨2, ![256, 256]⟩
abbrev S1x1x256 : Shape := ⟨3, ![1, 1, 256]⟩
abbrev S4352 : Shape := ⟨1, ![4352]⟩
abbrev S_ : Shape := ⟨0, ![]⟩

class Facts : Prop where
  bcast_S_S64x256x64x17 : S_.BroadcastsInDim S64x256x64x17 (![] : Fin 0 → Fin S64x256x64x17.rank)
  reducesTo_S64x256x64x17_S_d0_1_2_3 : S64x256x64x17.ReducesTo [0, 1, 2, 3] S_
  h_S_ : 0 < S_.numel
  bcast_S_S1x17x256 : S_.BroadcastsInDim S1x17x256 (![] : Fin 0 → Fin S1x17x256.rank)
  reducesTo_S1x17x256_S_d0_1_2 : S1x17x256.ReducesTo [0, 1, 2] S_
  bcast_S_S256x256 : S_.BroadcastsInDim S256x256 (![] : Fin 0 → Fin S256x256.rank)
  reducesTo_S256x256_S_d0_1 : S256x256.ReducesTo [0, 1] S_
  bcast_S_S1x1x256 : S_.BroadcastsInDim S1x1x256 (![] : Fin 0 → Fin S1x1x256.rank)
  reducesTo_S1x1x256_S_d0_1_2 : S1x1x256.ReducesTo [0, 1, 2] S_
  bcast_S_S4352 : S_.BroadcastsInDim S4352 (![] : Fin 0 → Fin S4352.rank)
  reducesTo_S4352_S_d0 : S4352.ReducesTo [0] S_

variable [Facts]

def fn_part2 {F : FTy → Type} [FloatOps F] (main_arg7 : FVec F S4352 .f32) (main_v33 : IVec S_ 1) : IVec S_ 1 :=
  let main_v34 : FVec F S4352 .f32 := Host.absf main_arg7
  let main_cst_12 : FVec F S_ .f32 := constant S_ .f32 0x7F800000#32
  let main_v35 : FVec F S4352 .f32 := broadcastInDim S4352 ![] bcast_S_S4352 main_cst_12
  let main_v36 : IVec S4352 1 := cmpf .olt main_v34 main_v35
  let main_c_13 : IVec S_ 1 := constantI S_ 1 1#1
  let main_v37 : IVec S_ 1 := (fun x v => Host.reduce IntOp.andi x v reducesTo_S4352_S_d0 h_S_) main_v36 main_c_13
  let main_v38 : IVec S_ 1 := andi main_v33 main_v37
  let main_cst_14 : FVec F S_ .f32 := constant S_ .f32 0x00000000#32
  let main_v39 : FVec F S4352 .f32 := broadcastInDim S4352 ![] bcast_S_S4352 main_cst_14
  let main_v40 : IVec S4352 1 := cmpf .oge main_arg7 main_v39
  let main_c_15 : IVec S_ 1 := constantI S_ 1 1#1
  let main_v41 : IVec S_ 1 := (fun x v => Host.reduce IntOp.andi x v reducesTo_S4352_S_d0 h_S_) main_v40 main_c_15
  let main_v42 : IVec S_ 1 := andi main_v38 main_v41
  main_v42

def fn_part1 {F : FTy → Type} [FloatOps F] (main_arg4 : FVec F S4352 .f32) (main_arg5 : FVec F S4352 .f32) (main_arg6 : FVec F S4352 .f32) (main_arg7 : FVec F S4352 .f32) (main_v13 : IVec S_ 1) (main_v16 : IVec S1x1x256 1) : IVec S_ 1 :=
  let main_c_5 : IVec S_ 1 := constantI S_ 1 1#1
  let main_v17 : IVec S_ 1 := (fun x v => Host.reduce IntOp.andi x v reducesTo_S1x1x256_S_d0_1_2 h_S_) main_v16 main_c_5
  let main_v18 : IVec S_ 1 := andi main_v13 main_v17
  let main_v19 : FVec F S4352 .f32 := Host.absf main_arg4
  let main_cst_6 : FVec F S_ .f32 := constant S_ .f32 0x7F800000#32
  let main_v20 : FVec F S4352 .f32 := broadcastInDim S4352 ![] bcast_S_S4352 main_cst_6
  let main_v21 : IVec S4352 1 := cmpf .olt main_v19 main_v20
  let main_c_7 : IVec S_ 1 := constantI S_ 1 1#1
  let main_v22 : IVec S_ 1 := (fun x v => Host.reduce IntOp.andi x v reducesTo_S4352_S_d0 h_S_) main_v21 main_c_7
  let main_v23 : IVec S_ 1 := andi main_v18 main_v22
  let main_v24 : FVec F S4352 .f32 := Host.absf main_arg5
  let main_cst_8 : FVec F S_ .f32 := constant S_ .f32 0x7F800000#32
  let main_v25 : FVec F S4352 .f32 := broadcastInDim S4352 ![] bcast_S_S4352 main_cst_8
  let main_v26 : IVec S4352 1 := cmpf .olt main_v24 main_v25
  let main_c_9 : IVec S_ 1 := constantI S_ 1 1#1
  let main_v27 : IVec S_ 1 := (fun x v => Host.reduce IntOp.andi x v reducesTo_S4352_S_d0 h_S_) main_v26 main_c_9
  let main_v28 : IVec S_ 1 := andi main_v23 main_v27
  let main_v29 : FVec F S4352 .f32 := Host.absf main_arg6
  let main_cst_10 : FVec F S_ .f32 := constant S_ .f32 0x7F800000#32
  let main_v30 : FVec F S4352 .f32 := broadcastInDim S4352 ![] bcast_S_S4352 main_cst_10
  let main_v31 : IVec S4352 1 := cmpf .olt main_v29 main_v30
  let main_c_11 : IVec S_ 1 := constantI S_ 1 1#1
  let main_v32 : IVec S_ 1 := (fun x v => Host.reduce IntOp.andi x v reducesTo_S4352_S_d0 h_S_) main_v31 main_c_11
  let main_v33 : IVec S_ 1 := andi main_v28 main_v32
  fn_part2 (F := F) main_arg7 main_v33

def fn {F : FTy → Type} [FloatOps F] (main_arg0 : FVec F S64x256x64x17 .f32) (main_arg1 : FVec F S1x17x256 .f32) (main_arg2 : FVec F S256x256 .f32) (main_arg3 : FVec F S1x1x256 .f32) (main_arg4 : FVec F S4352 .f32) (main_arg5 : FVec F S4352 .f32) (main_arg6 : FVec F S4352 .f32) (main_arg7 : FVec F S4352 .f32) (main_arg8 : IVec S4352 32) (main_arg9 : IVec S4352 32) : IVec S_ 1 :=
  let main_v0 : FVec F S64x256x64x17 .f32 := Host.absf main_arg0
  let main_cst : FVec F S_ .f32 := constant S_ .f32 0x7F800000#32
  let main_v1 : FVec F S64x256x64x17 .f32 := broadcastInDim S64x256x64x17 ![] bcast_S_S64x256x64x17 main_cst
  let main_v2 : IVec S64x256x64x17 1 := cmpf .olt main_v0 main_v1
  let main_c : IVec S_ 1 := constantI S_ 1 1#1
  let main_v3 : IVec S_ 1 := (fun x v => Host.reduce IntOp.andi x v reducesTo_S64x256x64x17_S_d0_1_2_3 h_S_) main_v2 main_c
  let main_v4 : FVec F S1x17x256 .f32 := Host.absf main_arg1
  let main_cst_0 : FVec F S_ .f32 := constant S_ .f32 0x7F800000#32
  let main_v5 : FVec F S1x17x256 .f32 := broadcastInDim S1x17x256 ![] bcast_S_S1x17x256 main_cst_0
  let main_v6 : IVec S1x17x256 1 := cmpf .olt main_v4 main_v5
  let main_c_1 : IVec S_ 1 := constantI S_ 1 1#1
  let main_v7 : IVec S_ 1 := (fun x v => Host.reduce IntOp.andi x v reducesTo_S1x17x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S1x1x256 .f32 := Host.absf main_arg3
  let main_cst_4 : FVec F S_ .f32 := constant S_ .f32 0x7F800000#32
  let main_v15 : FVec F S1x1x256 .f32 := broadcastInDim S1x1x256 ![] bcast_S_S1x1x256 main_cst_4
  let main_v16 : IVec S1x1x256 1 := cmpf .olt main_v14 main_v15
  fn_part1 (F := F) main_arg4 main_arg5 main_arg6 main_arg7 main_v13 main_v16
-- ==== Kernel.lean ====
abbrev S64x256x64x17 : Shape := ⟨4, ![64, 256, 64, 17]⟩
abbrev S1x17x256 : Shape := ⟨3, ![1, 17, 256]⟩
abbrev S256x256 : Shape := ⟨2, ![256, 256]⟩
abbrev S1x1x256 : Shape := ⟨3, ![1, 1, 256]⟩
abbrev S4352 : Shape := ⟨1, ![4352]⟩
abbrev S64x64x17x256 : Shape := ⟨4, ![64, 64, 17, 256]⟩
abbrev S4096x4352 : Shape := ⟨2, ![4096, 4352]⟩
abbrev S_ : Shape := ⟨0, ![]⟩
abbrev S4352x1 : Shape := ⟨2, ![4352, 1]⟩
abbrev S69632x256 : Shape := ⟨2, ![69632, 256]⟩
abbrev S1x256 : Shape := ⟨2, ![1, 256]⟩
abbrev S4352x256 : Shape := ⟨2, ![4352, 256]⟩
abbrev S256x17x256 : Shape := ⟨3, ![256, 17, 256]⟩
abbrev S4096x17x256 : Shape := ⟨3, ![4096, 17, 256]⟩
abbrev S17x256 : Shape := ⟨2, ![17, 256]⟩
abbrev S256x17 : Shape := ⟨2, ![256, 17]⟩
abbrev S256x1x17 : Shape := ⟨3, ![256, 1, 17]⟩
abbrev S256x64x17 : Shape := ⟨3, ![256, 64, 17]⟩
abbrev S256x1088 : Shape := ⟨2, ![256, 1088]⟩
abbrev S64x256x1088 : Shape := ⟨3, ![64, 256, 1088]⟩
abbrev S2x64x17x256 : Shape := ⟨4, ![2, 64, 17, 256]⟩
abbrev S2x256x1088 : Shape := ⟨3, ![2, 256, 1088]⟩
abbrev S2x1088x256 : Shape := ⟨3, ![2, 1088, 256]⟩
abbrev S1x256x1088 : Shape := ⟨3, ![1, 256, 1088]⟩

abbrev nBuf : Space → Nat
  | .hbm => 63
  | .vmem => 17
  | .smem => 0
  | _ => 0

abbrev bufTy : (tb : Table) → Fin (tcTables nBuf tb) → BufTy
  | .hbm, ⟨0, _⟩ => ⟨S64x256x64x17, .f32⟩
  | .hbm, ⟨1, _⟩ => ⟨S1x17x256, .f32⟩
  | .hbm, ⟨2, _⟩ => ⟨S256x256, .f32⟩
  | .hbm, ⟨3, _⟩ => ⟨S1x1x256, .f32⟩
  | .hbm, ⟨4, _⟩ => ⟨S4352, .f32⟩
  | .hbm, ⟨5, _⟩ => ⟨S4352, .f32⟩
  | .hbm, ⟨6, _⟩ => ⟨S4352, .f32⟩
  | .hbm, ⟨7, _⟩ => ⟨S4352, .f32⟩
  | .hbm, ⟨8, _⟩ => ⟨S4352, .i32⟩
  | .hbm, ⟨9, _⟩ => ⟨S4352, .i32⟩
  | .hbm, ⟨10, _⟩ => ⟨S64x64x17x256, .f32⟩
  | .hbm, ⟨11, _⟩ => ⟨S4096x4352, .f32⟩
  | .hbm, ⟨12, _⟩ => ⟨S_, .i32⟩
  | .hbm, ⟨13, _⟩ => ⟨S4352, .i32⟩
  | .hbm, ⟨14, _⟩ => ⟨S4352, .i1⟩
  | .hbm, ⟨15, _⟩ => ⟨S_, .i32⟩
  | .hbm, ⟨16, _⟩ => ⟨S4352, .i32⟩
  | .hbm, ⟨17, _⟩ => ⟨S4352, .i32⟩
  | .hbm, ⟨18, _⟩ => ⟨S4352, .i32⟩
  | .hbm, ⟨19, _⟩ => ⟨S4352x1, .i32⟩
  | .hbm, ⟨20, _⟩ => ⟨S4096x4352, .f32⟩
  | .hbm, ⟨21, _⟩ => ⟨S69632x256, .f32⟩
  | .hbm, ⟨22, _⟩ => ⟨S1x17x256, .f32⟩
  | .hbm, ⟨23, _⟩ => ⟨S_, .f32⟩
  | .hbm, ⟨24, _⟩ => ⟨S1x17x256, .f32⟩
  | .hbm, ⟨25, _⟩ => ⟨S1x17x256, .f32⟩
  | .hbm, ⟨26, _⟩ => ⟨S1x256, .f32⟩
  | .hbm, ⟨27, _⟩ => ⟨S69632x256, .f32⟩
  | .hbm, ⟨28, _⟩ => ⟨S4096x17x256, .f32⟩
  | .hbm, ⟨29, _⟩ => ⟨S4096x4352, .f32⟩
  | .hbm, ⟨30, _⟩ => ⟨S_, .i32⟩
  | .hbm, ⟨31, _⟩ => ⟨S4352, .i32⟩
  | .hbm, ⟨32, _⟩ => ⟨S4352, .i1⟩
  | .hbm, ⟨33, _⟩ => ⟨S_, .i32⟩
  | .hbm, ⟨34, _⟩ => ⟨S4352, .i32⟩
  | .hbm, ⟨35, _⟩ => ⟨S4352, .i32⟩
  | .hbm, ⟨36, _⟩ => ⟨S4352, .i32⟩
  | .hbm, ⟨37, _⟩ => ⟨S4352x1, .i32⟩
  | .hbm, ⟨38, _⟩ => ⟨S4096x4352, .f32⟩
  | .hbm, ⟨39, _⟩ => ⟨S64x64x17x256, .f32⟩
  | .hbm, ⟨40, _⟩ => ⟨S17x256, .f32⟩
  | .hbm, ⟨41, _⟩ => ⟨S256x17, .f32⟩
  | .hbm, ⟨42, _⟩ => ⟨S256x1x17, .f32⟩
  | .hbm, ⟨43, _⟩ => ⟨S256x64x17, .f32⟩
  | .hbm, ⟨44, _⟩ => ⟨S256x1088, .f32⟩
  | .hbm, ⟨45, _⟩ => ⟨S17x256, .f32⟩
  | .hbm, ⟨46, _⟩ => ⟨S256x17, .f32⟩
  | .hbm, ⟨47, _⟩ => ⟨S256x1x17, .f32⟩
  | .hbm, ⟨48, _⟩ => ⟨S256x64x17, .f32⟩
  | .hbm, ⟨49, _⟩ => ⟨S256x1088, .f32⟩
  | .hbm, ⟨50, _⟩ => ⟨S17x256, .f32⟩
  | .hbm, ⟨51, _⟩ => ⟨S256x17, .f32⟩
  | .hbm, ⟨52, _⟩ => ⟨S256x1x17, .f32⟩
  | .hbm, ⟨53, _⟩ => ⟨S256x64x17, .f32⟩
  | .hbm, ⟨54, _⟩ => ⟨S256x1088, .f32⟩
  | .hbm, ⟨55, _⟩ => ⟨S17x256, .f32⟩
  | .hbm, ⟨56, _⟩ => ⟨S256x17, .f32⟩
  | .hbm, ⟨57, _⟩ => ⟨S256x1x17, .f32⟩
  | .hbm, ⟨58, _⟩ => ⟨S256x64x17, .f32⟩
  | .hbm, ⟨59, _⟩ => ⟨S256x1088, .f32⟩
  | .hbm, ⟨60, _⟩ => ⟨S64x256x1088, .f32⟩
  | .hbm, ⟨61, _⟩ => ⟨S64x256x1088, .f32⟩
  | .hbm, ⟨62, _⟩ => ⟨S64x256x64x17, .f32⟩
  | .local _ .vmem, ⟨0, _⟩ => ⟨S4352x256, .f32⟩
  | .local _ .vmem, ⟨1, _⟩ => ⟨S4352x256, .f32⟩
  | .local _ .vmem, ⟨2, _⟩ => ⟨S1x17x256, .f32⟩
  | .local _ .vmem, ⟨3, _⟩ => ⟨S256x256, .f32⟩
  | .local _ .vmem, ⟨4, _⟩ => ⟨S1x256, .f32⟩
  | .local _ .vmem, ⟨5, _⟩ => ⟨S4352x256, .f32⟩
  | .local _ .vmem, ⟨6, _⟩ => ⟨S4352x256, .f32⟩
  | .local _ .vmem, ⟨7, _⟩ => ⟨S2x64x17x256, .f32⟩
  | .local _ .vmem, ⟨8, _⟩ => ⟨S2x64x17x256, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S2x256x1088, .f32⟩
  | .local _ .vmem, ⟨14, _⟩ => ⟨S2x256x1088, .f32⟩
  | .local _ .vmem, ⟨15, _⟩ => ⟨S2x256x1088, .f32⟩
  | .local _ .vmem, ⟨16, _⟩ => ⟨S2x256x1088, .f32⟩
  | _, _ => ⟨S64x256x64x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4352x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x17x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x64x17x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1088 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1088 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1088 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1088 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x256x1088 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x256x1088 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S64x256x64x17_S64x64x17x256_0_2_3_1 : S64x256x64x17.Transposes [0, 2, 3, 1] S64x64x17x256
  shapeCasts_S64x64x17x256_S4096x4352 : S64x64x17x256.ShapeCasts S4096x4352
  bcast_S_S4352 : S_.BroadcastsInDim S4352 (![] : Fin 0 → Fin S4352.rank)
  bcast_S4352_S4352x1_0 : S4352.BroadcastsInDim S4352x1 (![0] : Fin 1 → Fin S4352x1.rank)
  shapeCasts_S4096x4352_S69632x256 : S4096x4352.ShapeCasts S69632x256
  bcast_S_S1x17x256 : S_.BroadcastsInDim S1x17x256 (![] : Fin 0 → Fin S1x17x256.rank)
  shapeCasts_S1x1x256_S1x256 : S1x1x256.ShapeCasts S1x256
  inb_S4352x256_S4352x256_0_0 : ∀ a, (![0, 0] : Fin 2 → Nat) a + S4352x256.size a ≤ S4352x256.size a
  h_S4352x256 : 0 < S4352x256.numel
  shapeCasts_S4352x256_S4352x256 : S4352x256.ShapeCasts S4352x256
  shapeCasts_S4352x256_S256x17x256 : S4352x256.ShapeCasts S256x17x256
  inb_S1x17x256_S1x17x256_0_0_0 : ∀ a, (![0, 0, 0] : Fin 3 → Nat) a + S1x17x256.size a ≤ S1x17x256.size a
  h_S1x17x256 : 0 < S1x17x256.numel
  shapeCasts_S1x17x256_S1x17x256 : S1x17x256.ShapeCasts S1x17x256
  broadcasts_S1x17x256_S256x17x256 : S1x17x256.Broadcasts S256x17x256
  shapeCasts_S256x17x256_S4352x256 : S256x17x256.ShapeCasts S4352x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4352x256 : S1x256.Broadcasts S4352x256
  shapeCasts_S69632x256_S4096x17x256 : S69632x256.ShapeCasts S4096x17x256
  shapeCasts_S4096x17x256_S4096x4352 : S4096x17x256.ShapeCasts S4096x4352
  shapeCasts_S4096x4352_S64x64x17x256 : S4096x4352.ShapeCasts S64x64x17x256
  shapeCasts_S4352_S17x256 : S4352.ShapeCasts S17x256
  transposes_S17x256_S256x17_1_0 : S17x256.Transposes [1, 0] S256x17
  bcast_S256x17_S256x1x17_0_2 : S256x17.BroadcastsInDim S256x1x17 (![0, 2] : Fin 2 → Fin S256x1x17.rank)
  bcast_S256x1x17_S256x64x17_0_1_2 : S256x1x17.BroadcastsInDim S256x64x17 (![0, 1, 2] : Fin 3 → Fin S256x64x17.rank)
  shapeCasts_S256x64x17_S256x1088 : S256x64x17.ShapeCasts S256x1088
  shapeCasts_S64x256x64x17_S64x256x1088 : S64x256x64x17.ShapeCasts S64x256x1088
  inb_S2x64x17x256_S2x64x17x256_0_0_0_0 : ∀ a, (![0, 0, 0, 0] : Fin 4 → Nat) a + S2x64x17x256.size a ≤ S2x64x17x256.size a
  h_S2x64x17x256 : 0 < S2x64x17x256.numel
  shapeCasts_S2x64x17x256_S2x64x17x256 : S2x64x17x256.ShapeCasts S2x64x17x256
  shapeCasts_S2x64x17x256_S2x1088x256 : S2x64x17x256.ShapeCasts S2x1088x256
  transposes_S2x1088x256_p0_2_1_S2x256x1088 : S2x1088x256.Transposes [0, 2, 1] S2x256x1088
  inb_S256x1088_S256x1088_0_0 : ∀ a, (![0, 0] : Fin 2 → Nat) a + S256x1088.size a ≤ S256x1088.size a
  h_S256x1088 : 0 < S256x1088.numel
  shapeCasts_S256x1088_S256x1088 : S256x1088.ShapeCasts S256x1088
  shapeCasts_S256x1088_S1x256x1088 : S256x1088.ShapeCasts S1x256x1088
  broadcasts_S1x256x1088_S2x256x1088 : S1x256x1088.Broadcasts S2x256x1088
  inb_S2x256x1088_S2x256x1088_0_0_0 : ∀ a, (![0, 0, 0] : Fin 3 → Nat) a + S2x256x1088.size a ≤ S2x256x1088.size a
  h_S2x256x1088 : 0 < S2x256x1088.numel
  shapeCasts_S2x256x1088_S2x256x1088 : S2x256x1088.ShapeCasts S2x256x1088
  shapeCasts_S64x256x1088_S64x256x64x17 : S64x256x1088.ShapeCasts S64x256x64x17
  gather_S4096x4352_S4352x1_S4096x4352_0_1_n_n_1_1_40961_wf : GatherDims.WF S4096x4352 S4352x1 S4096x4352 [0] [1] [] [1] [] 1 ![4096, 1]
  dot_S4352x256_S256x256_S4352x256_1_0_0_1_n_n_wf : DotDims.WF S4352x256 S256x256 S4352x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4352x256.size a ≤ S69632x256.size a
  hwx0_0 : ∀ i : grid0.Coords, EltTy.bits .f32 = 32 ∨ (Rect.block (s := S69632x256) S4352x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x17x256.size a ≤ S1x17x256.size a
  hwx0_1 : ∀ i : grid0.Coords, EltTy.bits .f32 = 32 ∨ (Rect.block (s := S1x17x256) S1x17x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4352x256.size a ≤ S69632x256.size a
  hwx0_4 : ∀ i : grid0.Coords, EltTy.bits .f32 = 32 ∨ (Rect.block (s := S69632x256) S4352x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x64x17x256.size a ≤ S64x64x17x256.size a
  hwx1_0 : ∀ i : grid1.Coords, EltTy.bits .f32 = 32 ∨ (Rect.block (s := S64x64x17x256) S2x64x17x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1088.size a ≤ S256x1088.size a
  hwx1_1 : ∀ i : grid1.Coords, EltTy.bits .f32 = 32 ∨ (Rect.block (s := S256x1088) S256x1088.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1088.size a ≤ S256x1088.size a
  hwx1_2 : ∀ i : grid1.Coords, EltTy.bits .f32 = 32 ∨ (Rect.block (s := S256x1088) S256x1088.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1088.size a ≤ S256x1088.size a
  hwx1_3 : ∀ i : grid1.Coords, EltTy.bits .f32 = 32 ∨ (Rect.block (s := S256x1088) S256x1088.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1088.size a ≤ S256x1088.size a
  hwx1_4 : ∀ i : grid1.Coords, EltTy.bits .f32 = 32 ∨ (Rect.block (s := S256x1088) S256x1088.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x256x1088.size a ≤ S64x256x1088.size a
  hwx1_5 : ∀ i : grid1.Coords, EltTy.bits .f32 = 32 ∨ (Rect.block (s := S64x256x1088) S2x256x1088.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2x256x1088.size a ≤ S64x256x1088.size a
  hwx1_6 : ∀ i : grid1.Coords, EltTy.bits .f32 = 32 ∨ (Rect.block (s := S64x256x1088) S2x256x1088.size (cc1_transform_6 i) (hinb1_6 i)).WholeWords (EltTy.packing .f32)

variable [Facts₀]

def gather_S4096x4352_S4352x1_S4096x4352_0_1_n_n_1_1_40961 : GatherDims S4096x4352 S4352x1 S4096x4352 where
  offsetDims := [0]
  collapsedSliceDims := [1]
  operandBatchingDims := []
  startIndicesBatchingDims := []
  startIndexMap := [1]
  indexVectorDim := 1
  sliceSizes := ![4096, 1]
  wf := gather_S4096x4352_S4352x1_S4096x4352_0_1_n_n_1_1_40961_wf
def dot_S4352x256_S256x256_S4352x256_1_0_0_1_n_n : DotDims S4352x256 S256x256 S4352x256 where
  lhsContracting := [1]
  rhsContracting := [0]
  lhsNonContracting := [0]
  rhsNonContracting := [1]
  lhsBatch := []
  rhsBatch := []
  wf := dot_S4352x256_S256x256_S4352x256_1_0_0_1_n_n_wf

abbrev win0_0 : Pipeline.Window sig grid0 :=
  Pipeline.Window.ofSpec (Memref.whole main_v9) S4352x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x17x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4352x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S2x64x17x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S256x1088.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S256x1088.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S256x1088.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S256x1088.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2x256x1088.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v46) S2x256x1088.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S64x256x64x17 : Shape := ⟨4, ![64, 256, 64, 17]⟩
abbrev S1x17x256 : Shape := ⟨3, ![1, 17, 256]⟩
abbrev S256x256 : Shape := ⟨2, ![256, 256]⟩
abbrev S1x1x256 : Shape := ⟨3, ![1, 1, 256]⟩
abbrev S4352 : Shape := ⟨1, ![4352]⟩
abbrev S64x64x17x256 : Shape := ⟨4, ![64, 64, 17, 256]⟩
abbrev S4096x4352 : Shape := ⟨2, ![4096, 4352]⟩
abbrev S_ : Shape := ⟨0, ![]⟩
abbrev S4352x1 : Shape := ⟨2, ![4352, 1]⟩
abbrev S4096x17x256 : Shape := ⟨3, ![4096, 17, 256]⟩
abbrev S1x4352 : Shape := ⟨2, ![1, 4352]⟩

abbrev nBuf : Space → Nat
  | .hbm => 61
  | .vmem => 0
  | .smem => 0
  | _ => 0

abbrev bufTy : (tb : Table) → Fin (tcTables nBuf tb) → BufTy
  | .hbm, ⟨0, _⟩ => ⟨S64x256x64x17, .f32⟩
  | .hbm, ⟨1, _⟩ => ⟨S1x17x256, .f32⟩
  | .hbm, ⟨2, _⟩ => ⟨S256x256, .f32⟩
  | .hbm, ⟨3, _⟩ => ⟨S1x1x256, .f32⟩
  | .hbm, ⟨4, _⟩ => ⟨S4352, .f32⟩
  | .hbm, ⟨5, _⟩ => ⟨S4352, .f32⟩
  | .hbm, ⟨6, _⟩ => ⟨S4352, .f32⟩
  | .hbm, ⟨7, _⟩ => ⟨S4352, .f32⟩
  | .hbm, ⟨8, _⟩ => ⟨S4352, .i32⟩
  | .hbm, ⟨9, _⟩ => ⟨S4352, .i32⟩
  | .hbm, ⟨10, _⟩ => ⟨S64x64x17x256, .f32⟩
  | .hbm, ⟨11, _⟩ => ⟨S4096x4352, .f32⟩
  | .hbm, ⟨12, _⟩ => ⟨S_, .i32⟩
  | .hbm, ⟨13, _⟩ => ⟨S4352, .i32⟩
  | .hbm, ⟨14, _⟩ => ⟨S4352, .i1⟩
  | .hbm, ⟨15, _⟩ => ⟨S_, .i32⟩
  | .hbm, ⟨16, _⟩ => ⟨S4352, .i32⟩
  | .hbm, ⟨17, _⟩ => ⟨S4352, .i32⟩
  | .hbm, ⟨18, _⟩ => ⟨S4352, .i32⟩
  | .hbm, ⟨19, _⟩ => ⟨S4352x1, .i32⟩
  | .hbm, ⟨20, _⟩ => ⟨S4096x4352, .f32⟩
  | .hbm, ⟨21, _⟩ => ⟨S4096x17x256, .f32⟩
  | .hbm, ⟨22, _⟩ => ⟨S1x17x256, .f32⟩
  | .hbm, ⟨23, _⟩ => ⟨S_, .f32⟩
  | .hbm, ⟨24, _⟩ => ⟨S1x17x256, .f32⟩
  | .hbm, ⟨25, _⟩ => ⟨S1x17x256, .f32⟩
  | .hbm, ⟨26, _⟩ => ⟨S4096x17x256, .f32⟩
  | .hbm, ⟨27, _⟩ => ⟨S4096x17x256, .f32⟩
  | .hbm, ⟨28, _⟩ => ⟨S4096x17x256, .f32⟩
  | .hbm, ⟨29, _⟩ => ⟨S4096x17x256, .f32⟩
  | .hbm, ⟨30, _⟩ => ⟨S4096x17x256, .f32⟩
  | .hbm, ⟨31, _⟩ => ⟨S4096x4352, .f32⟩
  | .hbm, ⟨32, _⟩ => ⟨S_, .i32⟩
  | .hbm, ⟨33, _⟩ => ⟨S4352, .i32⟩
  | .hbm, ⟨34, _⟩ => ⟨S4352, .i1⟩
  | .hbm, ⟨35, _⟩ => ⟨S_, .i32⟩
  | .hbm, ⟨36, _⟩ => ⟨S4352, .i32⟩
  | .hbm, ⟨37, _⟩ => ⟨S4352, .i32⟩
  | .hbm, ⟨38, _⟩ => ⟨S4352, .i32⟩
  | .hbm, ⟨39, _⟩ => ⟨S4352x1, .i32⟩
  | .hbm, ⟨40, _⟩ => ⟨S4096x4352, .f32⟩
  | .hbm, ⟨41, _⟩ => ⟨S1x4352, .f32⟩
  | .hbm, ⟨42, _⟩ => ⟨S4096x4352, .f32⟩
  | .hbm, ⟨43, _⟩ => ⟨S4096x4352, .f32⟩
  | .hbm, ⟨44, _⟩ => ⟨S_, .f32⟩
  | .hbm, ⟨45, _⟩ => ⟨S4352, .f32⟩
  | .hbm, ⟨46, _⟩ => ⟨S4352, .f32⟩
  | .hbm, ⟨47, _⟩ => ⟨S4352, .f32⟩
  | .hbm, ⟨48, _⟩ => ⟨S4352, .f32⟩
  | .hbm, ⟨49, _⟩ => ⟨S1x4352, .f32⟩
  | .hbm, ⟨50, _⟩ => ⟨S4096x4352, .f32⟩
  | .hbm, ⟨51, _⟩ => ⟨S4096x4352, .f32⟩
  | .hbm, ⟨52, _⟩ => ⟨S1x4352, .f32⟩
  | .hbm, ⟨53, _⟩ => ⟨S4096x4352, .f32⟩
  | .hbm, ⟨54, _⟩ => ⟨S4096x4352, .f32⟩
  | .hbm, ⟨55, _⟩ => ⟨S64x64x17x256, .f32⟩
  | .hbm, ⟨56, _⟩ => ⟨S64x256x64x17, .f32⟩
  | .hbm, ⟨57, _⟩ => ⟨S64x256x64x17, .f32⟩
  | .hbm, ⟨58, _⟩ => ⟨S_, .f32⟩
  | .hbm, ⟨59, _⟩ => ⟨S64x256x64x17, .f32⟩
  | .hbm, ⟨60, _⟩ => ⟨S64x256x64x17, .f32⟩
  | _, _ => ⟨S64x256x64x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call0_cst : Ref sig .tc := ⟨.hbm, 58, rfl⟩
abbrev main_call0_v0 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  transposes_S64x256x64x17_S64x64x17x256_0_2_3_1 : S64x256x64x17.Transposes [0, 2, 3, 1] S64x64x17x256
  shapeCasts_S64x64x17x256_S4096x4352 : S64x64x17x256.ShapeCasts S4096x4352
  bcast_S_S4352 : S_.BroadcastsInDim S4352 (![] : Fin 0 → Fin S4352.rank)
  bcast_S4352_S4352x1_0 : S4352.BroadcastsInDim S4352x1 (![0] : Fin 1 → Fin S4352x1.rank)
  shapeCasts_S4096x4352_S4096x17x256 : S4096x4352.ShapeCasts S4096x17x256
  bcast_S_S1x17x256 : S_.BroadcastsInDim S1x17x256 (![] : Fin 0 → Fin S1x17x256.rank)
  bcast_S1x17x256_S4096x17x256_0_1_2 : S1x17x256.BroadcastsInDim S4096x17x256 (![0, 1, 2] : Fin 3 → Fin S4096x17x256.rank)
  bcast_S1x1x256_S4096x17x256_0_1_2 : S1x1x256.BroadcastsInDim S4096x17x256 (![0, 1, 2] : Fin 3 → Fin S4096x17x256.rank)
  shapeCasts_S4096x17x256_S4096x4352 : S4096x17x256.ShapeCasts S4096x4352
  bcast_S4352_S1x4352_1 : S4352.BroadcastsInDim S1x4352 (![1] : Fin 1 → Fin S1x4352.rank)
  bcast_S1x4352_S4096x4352_0_1 : S1x4352.BroadcastsInDim S4096x4352 (![0, 1] : Fin 2 → Fin S4096x4352.rank)
  shapeCasts_S4096x4352_S64x64x17x256 : S4096x4352.ShapeCasts S64x64x17x256
  transposes_S64x64x17x256_S64x256x64x17_0_3_1_2 : S64x64x17x256.Transposes [0, 3, 1, 2] S64x256x64x17
  bcast_S_S64x256x64x17 : S_.BroadcastsInDim S64x256x64x17 (![] : Fin 0 → Fin S64x256x64x17.rank)
  gather_S4096x4352_S4352x1_S4096x4352_0_1_n_n_1_1_40961_wf : GatherDims.WF S4096x4352 S4352x1 S4096x4352 [0] [1] [] [1] [] 1 ![4096, 1]
  dot_S4096x17x256_S256x256_S4096x17x256_2_0_01_1_n_n_wf : DotDims.WF S4096x17x256 S256x256 S4096x17x256 [2] [0] [0, 1] [1] [] []

variable [Facts₀]

def gather_S4096x4352_S4352x1_S4096x4352_0_1_n_n_1_1_40961 : GatherDims S4096x4352 S4352x1 S4096x4352 where
  offsetDims := [0]
  collapsedSliceDims := [1]
  operandBatchingDims := []
  startIndicesBatchingDims := []
  startIndexMap := [1]
  indexVectorDim := 1
  sliceSizes := ![4096, 1]
  wf := gather_S4096x4352_S4352x1_S4096x4352_0_1_n_n_1_1_40961_wf
def dot_S4096x17x256_S256x256_S4096x17x256_2_0_01_1_n_n : DotDims S4096x17x256 S256x256 S4096x17x256 where
  lhsContracting := [2]
  rhsContracting := [0]
  lhsNonContracting := [0, 1]
  rhsNonContracting := [1]
  lhsBatch := []
  rhsBatch := []
  wf := dot_S4096x17x256_S256x256_S4096x17x256_2_0_01_1_n_n_wf

class Facts : Prop extends Facts₀ where

variable [Facts]
-- ==== Proof.KRun.lean ====
/-
  The idealized kernel program's run with its RESULT named. The program is five segments: host operations, the
  first grid computation, host operations, the second grid computation, one closing reshape. Every weakly fair
  execution terminates without a fault; in every final state the result array holds what the fold of the five
  segments over the launch memory leaves in it (the contents called W5 at the result's buffer), and each
  argument array is as launched. The memory at the end is read against the last segment boundary's contents for
  every unscoped buffer at once; the result's buffer is one of them.
-/
import proofs.«142541_j8495445311793_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the five segments from the launch memory, its post naming the result array at the last boundary's
    contents and every argument array as launched. -/
theorem run_result : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Whole

end
-- ==== Proof.KHost.lean ====
/-
  The host operations of the idealized kernel program, read back as terms of the argument arrays.
  Between the launch and the first grid computation: the input is transposed to (sample, frame, joint, channel),
  flattened to one row per (sample, frame), its columns gathered through the input shift table, and cut into one row
  per (sample, frame, joint); the gate is tanh of the mask plus one; the bias loses a unit axis.
  Between the two grid computations: the first one's result, flattened again to one row per (sample, frame), has its
  columns gathered through the output shift table; each batch-norm parameter, indexed joint·256 + channel, becomes a
  table indexed (channel, frame·17 + joint), constant in the frame; the input is flattened to (sample, channel,
  frame·17 + joint). After the second grid computation its result is cut back into (sample, channel, frame, joint).
-/
import proofs.«142541_j8495445311793_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.Whole

open Idealize.ShloMosaic Idealize.ShloMosaic.TcCoe Idealize.ShloMosaic.Tactic Idealize.SL.Sem Idealize.ShloMosaic.StableHlo
open Cert.KernelIdeal Cert.KernelIdeal.Gen

/-- The start indices of a column gather: a negative entry of the shift table is moved up by the table's length,
    and the table becomes a column of one-entry index vectors. -/
def startIdx (s : IVec S4352 32) : IVec S4352x1 32 :=
  broadcastInDim S4352x1 ![0] bcast_S4352_S4352x1_0
    (select (cmpi .slt s (broadcastInDim S4352 ![] bcast_S_S4352 (constantI S_ 32 0#32)))
      (addi s (broadcastInDim S4352 ![] bcast_S_S4352 (constantI S_ 32 4352#32))) s)

/-- The columns of a (sample·frame) × (joint·channel) array gathered through a shift table. -/
def shiftCols (x : FVec Ideal S4096x4352 .f32) (s : IVec S4352 32) : FVec Ideal S4096x4352 .f32 :=
  Host.gather gather_S4096x4352_S4352x1_S4096x4352_0_1_n_n_1_1_40961 x (startIdx s)

/-- The input as one row per (sample, frame), columns (joint, channel). -/
def rowsOf (x0 : FVec Ideal S64x256x64x17 .f32) : FVec Ideal S4096x4352 .f32 :=
  shapeCast S4096x4352 (transpose S64x64x17x256 [0, 2, 3, 1] x0 transposes_S64x256x64x17_S64x64x17x256_0_2_3_1)
    shapeCasts_S64x64x17x256_S4096x4352

/-- The gate: tanh of the mask, plus one. -/
def gateOf (x1 : FVec Ideal S1x17x256 .f32) : FVec Ideal S1x17x256 .f32 :=
  addf (Host.tanh x1) (broadcastInDim S1x17x256 ![] bcast_S_S1x17x256 (constant S_ .f32 0x3F800000#32))

/-- A batch-norm parameter as a (channel, frame·17 + joint) table. -/
def tableOf (p : FVec Ideal S4352 .f32) : FVec Ideal S256x1088 .f32 :=
  shapeCast S256x1088
    (broadcastInDim S256x64x17 ![0, 1, 2] bcast_S256x1x17_S256x64x17_0_1_2
      (broadcastInDim S256x1x17 ![0, 2] bcast_S256x17_S256x1x17_0_2
        (transpose S256x17 [1, 0] (shapeCast S17x256 p shapeCasts_S4352_S17x256) transposes_S17x256_S256x17_1_0)))
    shapeCasts_S256x64x17_S256x1088

variable (m : (ℓ : Loc nD τ sig) → Buf (Elt Ideal) ℓ) (ρ : Dev nD → PrngReg) (c : Dev nD)

/-! ## Before the first grid computation -/

theorem entry0_rows : (V1 m ρ c main_v9 : S69632x256.Idx → EReal)
    = shapeCast S69632x256 (shiftCols (rowsOf (m ((c : Thread nD τ).loc main_arg0))) (m ((c : Thread nD τ).loc main_arg8)))
        shapeCasts_S4096x4352_S69632x256 := by
  show StableHlo.after hostOps0 (W0 m ρ c) (Proc.devRef .tc main_v9) = _
  after_results
  all_goals rfl

theorem entry0_gate : (V1 m ρ c main_v12 : S1x17x256.Idx → EReal) = gateOf (m ((c : Thread nD τ).loc main_arg1)) := by
  show StableHlo.after hostOps0 (W0 m ρ c) (Proc.devRef .tc main_v12) = _
  after_results
  all_goals rfl

theorem entry0_weight : (V1 m ρ c main_arg2 : S256x256.Idx → EReal) = m ((c : Thread nD τ).loc main_arg2) := by
  show StableHlo.after hostOps0 (W0 m ρ c) (Proc.devRef .tc main_arg2) = _
  after_results
  all_goals rfl

theorem entry0_bias : (V1 m ρ c main_v13 : S1x256.Idx → EReal)
    = shapeCast S1x256 (m ((c : Thread nD τ).loc main_arg3)) shapeCasts_S1x1x256_S1x256 := by
  show StableHlo.after hostOps0 (W0 m ρ c) (Proc.devRef .tc main_v13) = _
  after_results
  all_goals rfl

/-! ## Between the two grid computations -/

/-- No host operation of the first stretch writes an argument, and the first grid computation writes only its own
    result: an argument's buffer still holds the launch contents when the second stretch starts. -/
macro "arg_kept" a:ident : tactic =>
  `(tactic| (refine (W2_of_ne _ _ _ $a (by decide)).trans ?_
             refine (StableHlo.after_of_forall_not_mem (b := Proc.devRef .tc $a) _ _ (List.forall_iff_forall_mem.mp ?_)).trans rfl
             simp only [hostOps0, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem mid_arg0 : W2 m ρ c (Proc.devRef .tc main_arg0) = m ((c : Thread nD τ).loc main_arg0) := by arg_kept main_arg0
theorem mid_arg4 : W2 m ρ c (Proc.devRef .tc main_arg4) = m ((c : Thread nD τ).loc main_arg4) := by arg_kept main_arg4
theorem mid_arg5 : W2 m ρ c (Proc.devRef .tc main_arg5) = m ((c : Thread nD τ).loc main_arg5) := by arg_kept main_arg5
theorem mid_arg6 : W2 m ρ c (Proc.devRef .tc main_arg6) = m ((c : Thread nD τ).loc main_arg6) := by arg_kept main_arg6
theorem mid_arg7 : W2 m ρ c (Proc.devRef .tc main_arg7) = m ((c : Thread nD τ).loc main_arg7) := by arg_kept main_arg7
theorem mid_arg9 : W2 m ρ c (Proc.devRef .tc main_arg9) = m ((c : Thread nD τ).loc main_arg9) := by arg_kept main_arg9

set_option maxHeartbeats 4000000 in
theorem entry1_rows : (V3 m ρ c main_v24 : S64x64x17x256.Idx → EReal)
    = shapeCast S64x64x17x256
        (shiftCols
          (shapeCast S4096x4352
            (shapeCast S4096x17x256 ((dat0 (V1 m ρ) c).arrAt 4 cfg0.N) shapeCasts_S69632x256_S4096x17x256)
            shapeCasts_S4096x17x256_S4096x4352)
          (m ((c : Thread nD τ).loc main_arg9)))
        shapeCasts_S4096x4352_S64x64x17x256 := by
  rw [← mid_arg9 m ρ c, ← W2_arr m ρ c 4]
  show StableHlo.after hostOps1 (W2 m ρ c) (Proc.devRef .tc main_v24) = _
  after_results_simp
  all_goals rfl

theorem entry1_gamma : (V3 m ρ c main_v29 : S256x1088.Idx → EReal) = tableOf (m ((c : Thread nD τ).loc main_arg4)) := by
  rw [← mid_arg4 m ρ c]
  show StableHlo.after hostOps1 (W2 m ρ c) (Proc.devRef .tc main_v29) = _
  after_results
  all_goals rfl

theorem entry1_beta : (V3 m ρ c main_v34 : S256x1088.Idx → EReal) = tableOf (m ((c : Thread nD τ).loc main_arg5)) := by
  rw [← mid_arg5 m ρ c]
  show StableHlo.after hostOps1 (W2 m ρ c) (Proc.devRef .tc main_v34) = _
  after_results
  all_goals rfl

theorem entry1_mean : (V3 m ρ c main_v39 : S256x1088.Idx → EReal) = tableOf (m ((c : Thread nD τ).loc main_arg6)) := by
  rw [← mid_arg6 m ρ c]
  show StableHlo.after hostOps1 (W2 m ρ c) (Proc.devRef .tc main_v39) = _
  after_results
  all_goals rfl

theorem entry1_var : (V3 m ρ c main_v44 : S256x1088.Idx → EReal) = tableOf (m ((c : Thread nD τ).loc main_arg7)) := by
  rw [← mid_arg7 m ρ c]
  show StableHlo.after hostOps1 (W2 m ρ c) (Proc.devRef .tc main_v44) = _
  after_results
  all_goals rfl

theorem entry1_input : (V3 m ρ c main_v45 : S64x256x1088.Idx → EReal)
    = shapeCast S64x256x1088 (m ((c : Thread nD τ).loc main_arg0)) shapeCasts_S64x256x64x17_S64x256x1088 := by
  rw [← mid_arg0 m ρ c]
  show StableHlo.after hostOps1 (W2 m ρ c) (Proc.devRef .tc main_v45) = _
  after_results
  all_goals rfl

/-! ## After the second grid computation -/

theorem result_cut : (W5 m ρ c (Proc.devRef .tc main_v47) : S64x256x64x17.Idx → EReal)
    = shapeCast S64x256x64x17 ((dat1 (V3 m ρ) c).arrAt 6 cfg1.N) shapeCasts_S64x256x1088_S64x256x64x17 := by
  rw [← W4_arr m ρ c 6]
  show StableHlo.after hostOps2 (W4 m ρ c) (Proc.devRef .tc main_v47) = _
  after_results
  all_goals rfl

end Cert.KernelIdeal.Whole

end
-- ==== Proof.Spec.lean ====
/-
  The two grid computations of the shift-graph-convolution block, each as ONE function of whole arrays, read at
  explicit coordinates on the extended reals.

  linAt: row R of the flat activation (one row per (sample·frame, joint) pair; the joint is R mod 17) is
  multiplied entry by entry with the joint's gate row, contracted with the weight matrix over the 256 input
  channels, and the bias is added.

  bnAt: entry (n, d, q) with q = t·17 + v takes y[n, t, v, d], subtracts the mean, multiplies by
  γ · (σ² + ε)^(-1/2), adds β, adds the residual, and clamps at zero from below.
-/
import Idealize.ShloMosaic.PureOps.Ideal
import Idealize.ShloMosaic.Lib.ValueIdx

noncomputable section

namespace Cert.ShiftGcn

open Idealize.ShloMosaic Idealize.ShloMosaic.ValueIdx

/-- The gated row-by-matrix product plus bias at row R, output channel d. -/
def linAt (x : FVec Ideal ⟨2, ![69632, 256]⟩ .f32) (g : FVec Ideal ⟨3, ![1, 17, 256]⟩ .f32)
    (w : FVec Ideal ⟨2, ![256, 256]⟩ .f32) (b : FVec Ideal ⟨2, ![1, 256]⟩ .f32) (R : Fin 69632) (d : Fin 256) : EReal :=
  (∑ k : Fin 256, (x (ix2 R k) * g (ix3 (0 : Fin 1) (⟨R.val % 17, Nat.mod_lt _ (by norm_num)⟩ : Fin 17) k)) * w (ix2 k d))
    + b (ix2 (0 : Fin 1) d)

/-- The normalised, shifted, residual-added and clamped entry at sample n, channel d, merged (frame, joint)
    position q. -/
def bnAt (y : FVec Ideal ⟨4, ![64, 64, 17, 256]⟩ .f32) (ga be mn vr : FVec Ideal ⟨2, ![256, 1088]⟩ .f32)
    (xr : FVec Ideal ⟨3, ![64, 256, 1088]⟩ .f32) (n : Fin 64) (d : Fin 256) (q : Fin 1088) : EReal :=
  max ((((y (ix4 n (⟨q.val / 17, by have := q.isLt; omega⟩ : Fin 64) (⟨q.val % 17, Nat.mod_lt _ (by norm_num)⟩ : Fin 17) d)
          - mn (ix2 d q))
        * (ga (ix2 d q) * Ideal.rsqrt (vr (ix2 d q) + Ideal.ofBits .f32 0x3727C5AC#32)))
      + be (ix2 d q)) + xr (ix3 n d q))
    (Ideal.ofBits .f32 0x00000000#32)

end Cert.ShiftGcn

end
-- ==== Proof.Region0.lean ====
/-
  Region 0 of the kernel program: the gated linear layer, computed in 16 blocks of 4352 rows.

  The activation has 69632 rows of 256 channels; row R belongs to joint R mod 17. Each grid point t takes rows
  t * 4352, ..., t * 4352 + 4351, views them as 256 groups of 17 joints, multiplies every row entry by entry with
  its joint's gate row, contracts the result with the 256 x 256 weight matrix and adds the bias row. Since
  4352 = 256 * 17, a row's joint inside a block is its joint in the whole array, so every block is a block of rows
  of ONE function of the whole arrays, and the 16 blocks tile the 69632 rows. Hence the output array after the
  region holds, at row R and channel d,
      (sum over k of x[R, k] * gate[R mod 17, k] * w[k, d]) + bias[d].
  The steps: the block arithmetic at an index (the two regroupings of rows by row-major position, the broadcast of
  the gate, the matrix product as a sum over the contracted channel, the narrowing of the product's operands being
  the identity on the extended reals); the input blocks as rows of the arrays; what each point writes back; the
  cover of the rows by the blocks; the array.
-/
import proofs.«142541_j8495445311793_2_alg».proof.Proof.Gen.KernelIdeal.Frame
import proofs.«142541_j8495445311793_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Blocks
open Idealize.ShloMosaic Idealize.ShloMosaic.TcCoe Idealize.SL.Sem Idealize.ShloMosaic.ValueIdx
open Cert.KernelIdeal Cert.KernelIdeal.Gen Cert.ShiftGcn

/-- The zero offsets of a whole rank-2 block. -/
theorem hz2 : (![0, 0] : Fin 2 → Nat) = fun _ => 0 := funext fun a => by fin_cases a <;> rfl
/-- The zero offsets of a whole rank-3 block. -/
theorem hz3 : (![0, 0, 0] : Fin 3 → Nat) = fun _ => 0 := funext fun a => by fin_cases a <;> rfl

/-- Row p of the flat 4352 x 256 block, seen as entry (p / 17, p mod 17) of the 256 x 17 x 256 view, multiplied
    by the gate row of joint p mod 17 and cast back: the entry (p, k) of the block times the gate at (p mod 17, k). -/
theorem gated_apply (x : Vec Ideal S4352x256 .f32) (g : Vec Ideal S1x17x256 .f32)
    (h1 : S4352x256.ShapeCasts S256x17x256) (h2 : S1x17x256.Broadcasts S256x17x256)
    (h3 : S256x17x256.ShapeCasts S4352x256) (p : Fin 4352) (k : Fin 256) :
    shapeCast S4352x256 (mulf (shapeCast S256x17x256 x h1) (broadcastTo S256x17x256 g h2) : FVec Ideal S256x17x256 .f32) h3 (ix2 p k)
      = x (ix2 p k) * g (ix3 (0 : Fin 1) (⟨p.val % 17, Nat.mod_lt _ (by norm_num)⟩ : Fin 17) k) := by
  have hp := p.isLt
  have e3 := shapeCast_apply (mulf (shapeCast S256x17x256 x h1) (broadcastTo S256x17x256 g h2) : FVec Ideal S256x17x256 .f32) h3
    (ix2 p k) (ix3 (⟨p.val / 17, by omega⟩ : Fin 256) (⟨p.val % 17, Nat.mod_lt _ (by norm_num)⟩ : Fin 17) k) (by
      rw [Shape.rowMajor_val_three, Shape.rowMajor_val_two]
      show (p.val / 17 * 17 + p.val % 17) * 256 + k.val = p.val * 256 + k.val
      omega)
  have e1 := shapeCast_apply x h1
    (ix3 (⟨p.val / 17, by omega⟩ : Fin 256) (⟨p.val % 17, Nat.mod_lt _ (by norm_num)⟩ : Fin 17) k) (ix2 p k) (by
      rw [Shape.rowMajor_val_three, Shape.rowMajor_val_two]
      show p.val * 256 + k.val = (p.val / 17 * 17 + p.val % 17) * 256 + k.val
      omega)
  have e2 := broadcastTo_apply g h2
    (ix3 (⟨p.val / 17, by omega⟩ : Fin 256) (⟨p.val % 17, Nat.mod_lt _ (by norm_num)⟩ : Fin 17) k)
    (ix3 (0 : Fin 1) (⟨p.val % 17, Nat.mod_lt _ (by norm_num)⟩ : Fin 17) k) (fun a => by
      match a with
      | ⟨0, _⟩ => show 0 = if (1 : Nat) = 1 then 0 else p.val / 17; rw [if_pos rfl]
      | ⟨1, _⟩ => show p.val % 17 = if (17 : Nat) = 1 then 0 else p.val % 17; rw [if_neg (by decide)]
      | ⟨2, _⟩ => show k.val = if (256 : Nat) = 1 then 0 else k.val; rw [if_neg (by decide)])
  rw [e3, mulf_apply, e1, e2]

/-- The left operand index of the product at output (p, d) and contraction position k is (p, k). -/
theorem lhs_idx (p : Fin 4352) (d : Fin 256) (k : Fin 256) :
    dot_S4352x256_S256x256_S4352x256_1_0_0_1_n_n.lhsIdx (ix2 p d) ((contrEquiv1 dot_S4352x256_S256x256_S4352x256_1_0_0_1_n_n 256 rfl rfl).symm k) = ix2 p k := by
  have hk := contrEquiv1_symm_val dot_S4352x256_S256x256_S4352x256_1_0_0_1_n_n 256 rfl rfl k
  funext a
  apply Fin.ext
  match a with
  | ⟨0, _⟩ =>
    show (dot_S4352x256_S256x256_S4352x256_1_0_0_1_n_n.lhsIdx (ix2 p d) ((contrEquiv1 dot_S4352x256_S256x256_S4352x256_1_0_0_1_n_n 256 rfl rfl).symm k) 0).val = p.val
    unfold DotDims.lhsIdx
    rw [dif_neg (show ¬(0 : Fin S4352x256.rank) ∈ dot_S4352x256_S256x256_S4352x256_1_0_0_1_n_n.lhsBatch by decide), dif_pos (show (0 : Fin S4352x256.rank) ∈ dot_S4352x256_S256x256_S4352x256_1_0_0_1_n_n.lhsNonContracting by decide)]
    rfl
  | ⟨1, _⟩ => exact (dot_S4352x256_S256x256_S4352x256_1_0_0_1_n_n.lhsIdx_val_of_single rfl (ix2 p d) _).trans hk

/-- The right operand index of the product at output (p, d) and contraction position k is (k, d). -/
theorem rhs_idx (p : Fin 4352) (d : Fin 256) (k : Fin 256) :
    dot_S4352x256_S256x256_S4352x256_1_0_0_1_n_n.rhsIdx (ix2 p d) ((contrEquiv1 dot_S4352x256_S256x256_S4352x256_1_0_0_1_n_n 256 rfl rfl).symm k) = ix2 k d := by
  have hk := contrEquiv1_symm_val dot_S4352x256_S256x256_S4352x256_1_0_0_1_n_n 256 rfl rfl k
  funext a
  apply Fin.ext
  match a with
  | ⟨0, _⟩ => exact (dot_S4352x256_S256x256_S4352x256_1_0_0_1_n_n.rhsIdx_val_of_single rfl (ix2 p d) _).trans hk
  | ⟨1, _⟩ =>
    show (dot_S4352x256_S256x256_S4352x256_1_0_0_1_n_n.rhsIdx (ix2 p d) ((contrEquiv1 dot_S4352x256_S256x256_S4352x256_1_0_0_1_n_n 256 rfl rfl).symm k) 1).val = d.val
    unfold DotDims.rhsIdx
    rw [dif_neg (show ¬(1 : Fin S256x256.rank) ∈ dot_S4352x256_S256x256_S4352x256_1_0_0_1_n_n.rhsBatch by decide), dif_pos (show (1 : Fin S256x256.rank) ∈ dot_S4352x256_S256x256_S4352x256_1_0_0_1_n_n.rhsNonContracting by decide)]
    rfl

/-- The matrix product into the zero accumulator, at row p and column d, is the sum over the 256 contracted
    channels of the row entry times the matrix entry. -/
theorem matmul_apply_pd (a : FVec Ideal S4352x256 .bf16) (wv : FVec Ideal S256x256 .bf16) (p : Fin 4352) (d : Fin 256) :
    matmul dot_S4352x256_S256x256_S4352x256_1_0_0_1_n_n none a wv (constant (F := Ideal) S4352x256 .f32 0x00000000#32) (ix2 p d)
      = ∑ k : Fin 256, a (ix2 p k) * wv (ix2 k d) := by
  show FloatOps.matmul dot_S4352x256_S256x256_S4352x256_1_0_0_1_n_n none a wv (constant (F := Ideal) S4352x256 .f32 0x00000000#32) (ix2 p d) = _
  rw [Ideal.matmul_constant_zero_apply, ← Equiv.sum_comp (contrEquiv1 dot_S4352x256_S256x256_S4352x256_1_0_0_1_n_n 256 rfl rfl).symm]
  refine Finset.sum_congr rfl fun k _ => ?_
  rw [lhs_idx, rhs_idx]

/-- The body's arithmetic at row p, output channel d of a block: the gated row contracted with the weight
    matrix, plus the bias. Rounding the operands of the product to the narrower format changes nothing on the
    extended reals. -/
theorem pay_apply (x : Vec Ideal S4352x256 .f32) (g : Vec Ideal S1x17x256 .f32) (w : Vec Ideal S256x256 .f32)
    (b : Vec Ideal S1x256 .f32) (p : Fin 4352) (d : Fin 256) :
    k0_pay1 (F := Ideal) x g w b (ix2 p d)
      = (∑ k : Fin 256, (x (ix2 p k) * g (ix3 (0 : Fin 1) (⟨p.val % 17, Nat.mod_lt _ (by norm_num)⟩ : Fin 17) k)) * w (ix2 k d))
        + b (ix2 (0 : Fin 1) d) := by
  unfold k0_pay1
  simp only [shapeCast_self]
  rw [addf_apply, matmul_apply_pd, broadcastTo_1b_ab_apply]
  refine congrArg₂ (· + ·) (Finset.sum_congr rfl fun k _ => ?_) rfl
  rw [truncf_apply, truncf_apply, gated_apply]

/-- The whole output array as one function of the four input arrays: row R, channel d holds the gated
    row-by-matrix product plus bias. -/
def linArr (X : Vec Ideal S69632x256 .f32) (g : Vec Ideal S1x17x256 .f32) (w : Vec Ideal S256x256 .f32)
    (b : Vec Ideal S1x256 .f32) : S69632x256.Idx → EReal :=
  fun j => linAt X g w b ⟨(j 0).val, idx2_lt0 j⟩ ⟨(j 1).val, idx2_lt1 j⟩

/-- One block of the body's arithmetic is the matching block of rows of the whole-array function: when the block's
    row p is row t * 4352 + p of the activation and the other three inputs are the whole gate, weight and bias
    arrays, the payload at (p, d) is the whole-array value at (t * 4352 + p, d). The joint of a row is unchanged
    by the block offset because 4352 = 256 * 17. -/
theorem blk_value (X : Vec Ideal S69632x256 .f32) (g : Vec Ideal S1x17x256 .f32) (w : Vec Ideal S256x256 .f32)
    (b : Vec Ideal S1x256 .f32) (x0 : Vec Ideal S4352x256 .f32) (x1 : Vec Ideal S1x17x256 .f32)
    (x2 : Vec Ideal S256x256 .f32) (x3 : Vec Ideal S1x256 .f32) (t : Nat) (ht : t < 16)
    (h0 : ∀ (p : Fin 4352) (k : Fin 256), x0 (ix2 p k) = X (ix2 (⟨t * 4352 + p.val, by have := p.isLt; omega⟩ : Fin 69632) k))
    (h1 : x1 = g) (h2 : x2 = w) (h3 : x3 = b) (y : S4352x256.Idx) (R : Fin 69632) (d' : Fin 256)
    (hR : R.val = t * 4352 + (y 0).val) (hd : d'.val = (y 1).val) :
    k0_pay1 (F := Ideal) x0 x1 x2 x3 y = linAt X g w b R d' := by
  obtain ⟨p, d, rfl⟩ : ∃ (p : Fin 4352) (d : Fin 256), y = ix2 p d := ⟨y 0, y 1, eq_ix2 y⟩
  subst h1 h2 h3
  obtain rfl : d' = d := Fin.ext hd
  have hp := p.isLt
  have hlt : t * 4352 + p.val < 69632 := by clear hR; omega
  obtain rfl : R = (⟨t * 4352 + p.val, hlt⟩ : Fin 69632) := Fin.ext hR
  rw [pay_apply]
  unfold linAt
  refine congrArg₂ (· + ·) (Finset.sum_congr rfl fun k _ => ?_) rfl
  rw [h0 p k]
  have e17 : (⟨p.val % 17, Nat.mod_lt _ (by norm_num)⟩ : Fin 17)
      = ⟨(t * 4352 + p.val) % 17, Nat.mod_lt _ (by norm_num)⟩ := Fin.ext (by show p.val % 17 = (t * 4352 + p.val) % 17; omega)
  rw [e17]

/-- The windows' index maps over the 16 grid points: the activation and output blocks move down by one block per
    point, the gate, weight and bias windows stay at block zero. -/
theorem block_index : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The activation window's block at grid point t is rows t * 4352, ..., t * 4352 + 4351 of the activation. -/
theorem iblk_x (c : Dev nD) (t : Fin cfg0.N) (p : Fin 4352) (k : Fin 256) :
    (iblk0 (F := Ideal) V c 0 t : Vec Ideal S4352x256 .f32) (ix2 p k)
      = (V c main_v9 : S69632x256.Idx → EReal)
          (ix2 (⟨t.val * 4352 + p.val, by have := p.isLt; have := t.isLt; have hN : cfg0.N = 16 := N_0; omega⟩ : Fin 69632) k) := by
  obtain ⟨e0, e1, -⟩ := block_index t
  unfold iblk0
  rw [View.read_apply]
  show V c main_v9 _ = V c main_v9 _
  refine congrArg _ (funext fun a => Fin.ext ?_)
  match a with
  | ⟨0, _⟩ => show win0_0.index t (0 : Fin 2) * 4352 + 1 * p.val = t.val * 4352 + p.val; rw [e0]; omega
  | ⟨1, _⟩ => show win0_0.index t (1 : Fin 2) * 256 + 1 * k.val = k.val; rw [e1]; omega

/-- The gate window's block at every grid point is the whole gate array. -/
theorem iblk_g (c : Dev nD) (t : Fin cfg0.N) :
    (iblk0 (F := Ideal) V c 1 t : Vec Ideal S1x17x256 .f32) = (V c main_v12 : S1x17x256.Idx → EReal) := by
  obtain ⟨-, -, e0, e1, e2, -⟩ := block_index t
  funext y
  unfold iblk0
  rw [View.read_apply]
  show V c main_v12 _ = V c main_v12 y
  refine congrArg _ (funext fun a => Fin.ext ?_)
  match a with
  | ⟨0, _⟩ => show win0_1.index t (0 : Fin 3) * 1 + 1 * (y 0).val = (y 0).val; rw [e0]; omega
  | ⟨1, _⟩ => show win0_1.index t (1 : Fin 3) * 17 + 1 * (y 1).val = (y 1).val; rw [e1]; omega
  | ⟨2, _⟩ => show win0_1.index t (2 : Fin 3) * 256 + 1 * (y 2).val = (y 2).val; rw [e2]; omega

/-- The weight window's block at every grid point is the whole weight matrix. -/
theorem iblk_w (c : Dev nD) (t : Fin cfg0.N) :
    (iblk0 (F := Ideal) V c 2 t : Vec Ideal S256x256 .f32) = (V c main_arg2 : S256x256.Idx → EReal) := by
  obtain ⟨-, -, -, -, -, e0, e1, -⟩ := block_index t
  funext y
  unfold iblk0
  rw [View.read_apply]
  show V c main_arg2 _ = V c main_arg2 y
  refine congrArg _ (funext fun a => Fin.ext ?_)
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The bias window's block at every grid point is the whole bias row. -/
theorem iblk_b (c : Dev nD) (t : Fin cfg0.N) :
    (iblk0 (F := Ideal) V c 3 t : Vec Ideal S1x256 .f32) = (V c main_v13 : S1x256.Idx → EReal) := by
  obtain ⟨-, -, -, -, -, -, -, e0, e1, -⟩ := block_index t
  funext y
  unfold iblk0
  rw [View.read_apply]
  show V c main_v13 _ = V c main_v13 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- What grid point t writes back is block t of the whole-array function of the region's input arrays. -/
theorem writeback_eq (c : Dev nD) (t : Fin cfg0.N) :
    (dat0 (F := Ideal) V c).flushed 4 t
      = ((cfg0.win 4).blk t).view.read (Elt Ideal) (linArr (V c main_v9) (V c main_v12) (V c main_arg2) (V c main_v13)) := by
  show (cfg0.win 4).cut (grid0.coords t) ((dat0 (F := Ideal) V c).after 4 t) = _
  rw [after0_4]
  unfold out0_4
  rw [View.canon_unit_zero hz2]
  simp only [View.ld_unit_zero (S := S4352x256) hz2, View.ld_unit_zero (S := S1x17x256) hz3,
    View.ld_unit_zero (S := S256x256) hz2, View.ld_unit_zero (S := S1x256) hz2]
  obtain ⟨-, -, -, -, -, -, -, -, -, e0, e1⟩ := block_index t
  have hN : cfg0.N = 16 := N_0
  have ht := t.isLt
  funext j
  show k0_pay1 (F := Ideal) (iblk0 V c 0 t) (iblk0 V c 1 t) (iblk0 V c 2 t) (iblk0 V c 3 t) j
    = linArr (V c main_v9) (V c main_v12) (V c main_arg2) (V c main_v13) (((cfg0.win 4).blk t).view.emb j)
  unfold linArr
  refine blk_value (V c main_v9) (V c main_v12) (V c main_arg2) (V c main_v13)
    (iblk0 V c 0 t) (iblk0 V c 1 t) (iblk0 V c 2 t) (iblk0 V c 3 t) t.val (by omega)
    (fun p k => iblk_x V c t p k) (iblk_g V c t) (iblk_w V c t) (iblk_b V c t) j _ _ ?_ ?_
  · show win0_4.index t (0 : Fin 2) * 4352 + 1 * (j 0).val = t.val * 4352 + (j 0).val
    rw [e0]; omega
  · show win0_4.index t (1 : Fin 2) * 256 + 1 * (j 1).val = (j 1).val
    rw [e1]; omega

/-- An index of the output array is in point t's block iff each coordinate is in the block's range on its axis. -/
theorem mem_out_block (t : Fin cfg0.N) (i : S69632x256.Idx) :
    i ∈ ((cfg0.win 4).blk t).view.set ↔ ∀ a : Fin 2, win0_4.index t a * S4352x256.size a ≤ (i a).val
      ∧ (i a).val < win0_4.index t a * S4352x256.size a + S4352x256.size a := by
  show i ∈ ((View.whole main_v14).slice (win0_4.rect t)).set ↔ _
  rw [View.set_slice_whole, Rect.mem_set_unit]
  exact Iff.rfl

/-- Every row R of the output lies in the block of the grid point R / 4352: the 16 blocks of 4352 rows tile
    the 69632 rows. -/
theorem rows_covered (i : S69632x256.Idx) :
    ∃ t : Fin cfg0.N, (cfg0.win 4).flush t = true ∧ i ∈ ((cfg0.win 4).blk t).view.set := by
  have hN : cfg0.N = 16 := N_0
  have hi0 : (i 0).val < 69632 := idx2_lt0 i
  have hi1 : (i 1).val < 256 := idx2_lt1 i
  refine ⟨⟨(i 0).val / 4352, by rw [hN]; omega⟩, flush0_4 _, ?_⟩
  rw [mem_out_block]
  obtain ⟨-, -, -, -, -, -, -, -, -, e0, e1⟩ := block_index ⟨(i 0).val / 4352, by rw [hN]; omega⟩
  intro a
  match a with
  | ⟨0, _⟩ =>
    show win0_4.index ⟨(i 0).val / 4352, _⟩ (0 : Fin 2) * 4352 ≤ (i 0).val
      ∧ (i 0).val < win0_4.index ⟨(i 0).val / 4352, _⟩ (0 : Fin 2) * 4352 + 4352
    rw [e0]; show (i 0).val / 4352 * 4352 ≤ (i 0).val ∧ (i 0).val < (i 0).val / 4352 * 4352 + 4352; omega
  | ⟨1, _⟩ =>
    show win0_4.index ⟨(i 0).val / 4352, _⟩ (1 : Fin 2) * 256 ≤ (i 1).val
      ∧ (i 1).val < win0_4.index ⟨(i 0).val / 4352, _⟩ (1 : Fin 2) * 256 + 256
    rw [e1]; omega

/-- The output array after the region is the whole-array function of the region's input arrays. -/
theorem region0_array (c : Dev nD) :
    (dat0 (F := Ideal) V c).arrAt 4 cfg0.N = linArr (V c main_v9) (V c main_v12) (V c main_arg2) (V c main_v13) :=
  (dat0 (F := Ideal) V c).arrAt_eq_of_cover 4 (linArr (V c main_v9) (V c main_v12) (V c main_arg2) (V c main_v13))
    (fun t _ => writeback_eq V c t) rows_covered

theorem region0_value (c : Dev nD) (R : Fin 69632) (d : Fin 256) :
    ((dat0 (F := Ideal) V c).arrAt 4 cfg0.N : S69632x256.Idx → EReal) (ix2 R d)
      = linAt (V c main_v9) (V c main_v12) (V c main_arg2) (V c main_v13) R d := by
  rw [region0_array V c]
  rfl

end Cert.KernelIdeal.Blocks
end
-- ==== Proof.Region1.lean ====
/-
  Region 1 of the kernel program: the batch-normalisation, residual and clamp computation over a grid of 32 points.

  Point t loads samples 2 t and 2 t + 1 of the activation (shape 64 x 64 x 17 x 256) and of the residual
  (shape 64 x 256 x 1088), the four per-(channel, position) tables gamma, beta, mean and variance whole, and stores
  two samples of the output (shape 64 x 256 x 1088).

  The body merges the (frame, joint) axes of the activation into one position q = frame * 17 + joint, swaps the
  channel and position axes, subtracts the mean, multiplies by gamma over the square root of the variance shifted by
  epsilon, adds beta, adds the residual and clamps at zero from below. All of this is entry by entry, so the value
  stored at (a, d, q) of the block depends on the activation at (a, q / 17, q mod 17, d) only.

  The blocks written back by the 32 points are the restrictions of ONE function of the whole arrays (the global
  sample is n = 2 t + a, and sample n is covered by point n / 2), so the output array after the region is that
  function: the specification bnAt at every (n, d, q).
-/
import proofs.«142541_j8495445311793_2_alg».proof.Proof.Gen.KernelIdeal.Frame
import proofs.«142541_j8495445311793_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Blocks
open Idealize.ShloMosaic Idealize.ShloMosaic.TcCoe Idealize.SL.Sem Idealize.ShloMosaic.ValueIdx
open Cert.KernelIdeal Cert.KernelIdeal.Gen Cert.ShiftGcn

variable (V : (c : Dev nD) → (b : Ref sig .tc) → Buf (Elt Ideal) ((c : Thread nD τ).loc b))

namespace Region1

/-! ## The body's arithmetic at an index -/

/-- The merged (frame, joint) axis: position q = f * 17 + j of the 2 x 1088 x 256 arrangement is entry (f, j)
    of the 2 x 64 x 17 x 256 arrangement, and the transposition swaps the last two axes. -/
theorem merged_transposed_at {α : Type} (y : S2x64x17x256.Idx → α)
    (h0 : S2x64x17x256.ShapeCasts S2x64x17x256) (h1 : S2x64x17x256.ShapeCasts S2x1088x256)
    (h2 : S2x1088x256.Transposes [0, 2, 1] S2x256x1088) (a : Fin 2) (d : Fin 256) (q : Fin 1088) :
    transpose S2x256x1088 [0, 2, 1] (shapeCast S2x1088x256 (shapeCast S2x64x17x256 y h0) h1) h2 (ix3 a d q)
      = y (ix4 a (⟨q.val / 17, by have := q.isLt; omega⟩ : Fin 64) (⟨q.val % 17, Nat.mod_lt _ (by norm_num)⟩ : Fin 17) d) := by
  refine (transpose_ix3_021_apply _ h2 a d q).trans ?_
  refine (shapeCast_apply _ h1 (ix3 a q d) (ix4 a (⟨q.val / 17, by have := q.isLt; omega⟩ : Fin 64) (⟨q.val % 17, Nat.mod_lt _ (by norm_num)⟩ : Fin 17) d) ?_).trans ?_
  · rw [Shape.rowMajor_val_four, Shape.rowMajor_val_three]
    show ((a.val * 64 + q.val / 17) * 17 + q.val % 17) * 256 + d.val = (a.val * 1088 + q.val) * 256 + d.val
    have := Nat.div_add_mod q.val 17
    omega
  · exact congrFun (shapeCast_self y h0) _

/-- A per-channel table with a unit sample axis added, at (u, d, q), is the table at (d, q). -/
theorem table_unit_at {α : Type} (g : S256x1088.Idx → α)
    (h0 : S256x1088.ShapeCasts S256x1088) (h1 : S256x1088.ShapeCasts S1x256x1088)
    (u : Fin 1) (d : Fin 256) (q : Fin 1088) :
    shapeCast S1x256x1088 (shapeCast S256x1088 g h0) h1 (ix3 u d q) = g (ix2 d q) :=
  (shapeCast_ab_1ab_apply _ h1 u d q).trans (congrFun (shapeCast_self g h0) _)

/-- Broadcasting along the sample axis forgets the sample. -/
theorem sample_broadcast_at {α : Type} (v : S1x256x1088.Idx → α) (h : S1x256x1088.Broadcasts S2x256x1088)
    (a : Fin 2) (d : Fin 256) (q : Fin 1088) :
    broadcastTo S2x256x1088 v h (ix3 a d q) = v (ix3 (0 : Fin 1) d q) := by
  refine broadcastTo_apply v h (ix3 a d q) (ix3 (0 : Fin 1) d q) fun ax => ?_
  match ax with
  | ⟨0, _⟩ => rfl
  | ⟨1, _⟩ => rfl
  | ⟨2, _⟩ => rfl

/-- The reciprocal square root of a vector, read at an index. -/
theorem rsqrt_at {s : Shape} {φ : FTy} (v : FVec Ideal s φ) (i : s.Idx) : rsqrt v i = Ideal.rsqrt (v i) := rfl

/-- The body's stored value at sample a of the block, channel d, merged position q: the activation at
    (a, q / 17, q % 17, d) minus the mean, times gamma over the square root of the shifted variance, plus beta,
    plus the residual, clamped at zero from below. -/
theorem payload_at (y : Vec Ideal S2x64x17x256 .f32) (ga be mn vr : Vec Ideal S256x1088 .f32)
    (xr : Vec Ideal S2x256x1088 .f32) (a : Fin 2) (d : Fin 256) (q : Fin 1088) :
    (k1_pay1 (F := Ideal) y ga be mn vr xr) (ix3 a d q)
      = max ((((y (ix4 a (⟨q.val / 17, by have := q.isLt; omega⟩ : Fin 64) (⟨q.val % 17, Nat.mod_lt _ (by norm_num)⟩ : Fin 17) d)
              - mn (ix2 d q))
            * (ga (ix2 d q) * Ideal.rsqrt (vr (ix2 d q) + Ideal.ofBits .f32 0x3727C5AC#32)))
          + be (ix2 d q)) + xr (ix3 a d q))
        (Ideal.ofBits .f32 0x00000000#32) := by
  unfold k1_pay1
  dsimp only [maximumf_apply, addf_apply, mulf_apply, subf_apply, broadcast_apply]
  rw [merged_transposed_at, sample_broadcast_at, sample_broadcast_at, sample_broadcast_at]
  dsimp only [mulf_apply, addf_apply, broadcast_apply, rsqrt_at]
  rw [table_unit_at, table_unit_at, table_unit_at, table_unit_at, shapeCast_self]
  simp only [Ideal.ofBits_def]

/-- The same value when the six loaded blocks are the slices, at grid point tv, of whole arrays: samples
    2 tv and 2 tv + 1 of the activation and of the residual, and the four tables whole. The global sample is
    2 tv + a. -/
theorem point_value (x0 : Vec Ideal S2x64x17x256 .f32) (x1 x2 x3 x4 : Vec Ideal S256x1088 .f32)
    (x5 : Vec Ideal S2x256x1088 .f32)
    (Y : FVec Ideal ⟨4, ![64, 64, 17, 256]⟩ .f32) (GA BE MN VR : FVec Ideal ⟨2, ![256, 1088]⟩ .f32)
    (XR : FVec Ideal ⟨3, ![64, 256, 1088]⟩ .f32) (tv : Nat) (ht : tv < 32)
    (h0 : ∀ (a : Fin 2) (f : Fin 64) (j : Fin 17) (d : Fin 256),
      x0 (ix4 a f j d) = Y (ix4 (⟨tv * 2 + a.val, by have := a.isLt; omega⟩ : Fin 64) f j d))
    (h1 : ∀ (d : Fin 256) (q : Fin 1088), x1 (ix2 d q) = GA (ix2 d q))
    (h2 : ∀ (d : Fin 256) (q : Fin 1088), x2 (ix2 d q) = BE (ix2 d q))
    (h3 : ∀ (d : Fin 256) (q : Fin 1088), x3 (ix2 d q) = MN (ix2 d q))
    (h4 : ∀ (d : Fin 256) (q : Fin 1088), x4 (ix2 d q) = VR (ix2 d q))
    (h5 : ∀ (a : Fin 2) (d : Fin 256) (q : Fin 1088),
      x5 (ix3 a d q) = XR (ix3 (⟨tv * 2 + a.val, by have := a.isLt; omega⟩ : Fin 64) d q))
    (a : Fin 2) (d : Fin 256) (q : Fin 1088) :
    (k1_pay1 (F := Ideal) x0 x1 x2 x3 x4 x5) (ix3 a d q)
      = bnAt Y GA BE MN VR XR (⟨tv * 2 + a.val, by have := a.isLt; omega⟩ : Fin 64) d q := by
  rw [payload_at, h0, h1, h2, h3, h4, h5]
  rfl

/-! ## The blocks of the six input windows -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps, decided over the 32 grid points: the activation, the residual and the output move along
    the sample axis with the point; the four tables stay. -/
theorem index_facts : ∀ t : Fin cfg1.N,
    (win1_0.index t (0 : Fin 4) = t.val ∧ win1_0.index t (1 : Fin 4) = 0 ∧ win1_0.index t (2 : Fin 4) = 0
      ∧ win1_0.index t (3 : Fin 4) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0) :=
  (by decide +kernel : ∀ t : Fin grid1.N, _)

/-- The activation's block at point t holds samples 2 t and 2 t + 1. -/
theorem block0_at (c : Dev nD) (t : Fin cfg1.N) (a : Fin 2) (f : Fin 64) (j : Fin 17) (d : Fin 256) :
    (iblk1 (F := Ideal) V c 0 t : Vec Ideal S2x64x17x256 .f32) (ix4 a f j d)
      = (V c main_v24 : S64x64x17x256.Idx → EReal)
          (ix4 (⟨t.val * 2 + a.val, by have := a.isLt; have := t.isLt; have hN : cfg1.N = 32 := N_1; omega⟩ : Fin 64) f j d) := by
  obtain ⟨⟨e0, e1, e2, e3⟩, -⟩ := index_facts t
  unfold iblk1
  rw [View.read_apply]
  show V c main_v24 _ = V c main_v24 _
  refine congrArg _ (funext fun ax => Fin.ext ?_)
  match ax with
  | ⟨0, _⟩ => show win1_0.index t (0 : Fin 4) * 2 + 1 * a.val = t.val * 2 + a.val; rw [e0]; omega
  | ⟨1, _⟩ => show win1_0.index t (1 : Fin 4) * 64 + 1 * f.val = f.val; rw [e1]; omega
  | ⟨2, _⟩ => show win1_0.index t (2 : Fin 4) * 17 + 1 * j.val = j.val; rw [e2]; omega
  | ⟨3, _⟩ => show win1_0.index t (3 : Fin 4) * 256 + 1 * d.val = d.val; rw [e3]; omega

/-- The gamma table's block is the whole table at every point. -/
theorem block1_at (c : Dev nD) (t : Fin cfg1.N) (d : Fin 256) (q : Fin 1088) :
    (iblk1 (F := Ideal) V c 1 t : Vec Ideal S256x1088 .f32) (ix2 d q)
      = (V c main_v29 : S256x1088.Idx → EReal) (ix2 d q) := by
  obtain ⟨-, ⟨e0, e1⟩, -⟩ := index_facts t
  unfold iblk1
  rw [View.read_apply]
  show V c main_v29 _ = V c main_v29 _
  refine congrArg _ (funext fun ax => Fin.ext ?_)
  match ax with
  | ⟨0, _⟩ => show win1_1.index t (0 : Fin 2) * 256 + 1 * d.val = d.val; rw [e0]; omega
  | ⟨1, _⟩ => show win1_1.index t (1 : Fin 2) * 1088 + 1 * q.val = q.val; rw [e1]; omega

/-- The beta table's block is the whole table at every point. -/
theorem block2_at (c : Dev nD) (t : Fin cfg1.N) (d : Fin 256) (q : Fin 1088) :
    (iblk1 (F := Ideal) V c 2 t : Vec Ideal S256x1088 .f32) (ix2 d q)
      = (V c main_v34 : S256x1088.Idx → EReal) (ix2 d q) := by
  obtain ⟨-, -, ⟨e0, e1⟩, -⟩ := index_facts t
  unfold iblk1
  rw [View.read_apply]
  show V c main_v34 _ = V c main_v34 _
  refine congrArg _ (funext fun ax => Fin.ext ?_)
  match ax with
  | ⟨0, _⟩ => show win1_2.index t (0 : Fin 2) * 256 + 1 * d.val = d.val; rw [e0]; omega
  | ⟨1, _⟩ => show win1_2.index t (1 : Fin 2) * 1088 + 1 * q.val = q.val; rw [e1]; omega

/-- The mean table's block is the whole table at every point. -/
theorem block3_at (c : Dev nD) (t : Fin cfg1.N) (d : Fin 256) (q : Fin 1088) :
    (iblk1 (F := Ideal) V c 3 t : Vec Ideal S256x1088 .f32) (ix2 d q)
      = (V c main_v39 : S256x1088.Idx → EReal) (ix2 d q) := by
  obtain ⟨-, -, -, ⟨e0, e1⟩, -⟩ := index_facts t
  unfold iblk1
  rw [View.read_apply]
  show V c main_v39 _ = V c main_v39 _
  refine congrArg _ (funext fun ax => Fin.ext ?_)
  match ax with
  | ⟨0, _⟩ => show win1_3.index t (0 : Fin 2) * 256 + 1 * d.val = d.val; rw [e0]; omega
  | ⟨1, _⟩ => show win1_3.index t (1 : Fin 2) * 1088 + 1 * q.val = q.val; rw [e1]; omega

/-- The variance table's block is the whole table at every point. -/
theorem block4_at (c : Dev nD) (t : Fin cfg1.N) (d : Fin 256) (q : Fin 1088) :
    (iblk1 (F := Ideal) V c 4 t : Vec Ideal S256x1088 .f32) (ix2 d q)
      = (V c main_v44 : S256x1088.Idx → EReal) (ix2 d q) := by
  obtain ⟨-, -, -, -, ⟨e0, e1⟩, -⟩ := index_facts t
  unfold iblk1
  rw [View.read_apply]
  show V c main_v44 _ = V c main_v44 _
  refine congrArg _ (funext fun ax => Fin.ext ?_)
  match ax with
  | ⟨0, _⟩ => show win1_4.index t (0 : Fin 2) * 256 + 1 * d.val = d.val; rw [e0]; omega
  | ⟨1, _⟩ => show win1_4.index t (1 : Fin 2) * 1088 + 1 * q.val = q.val; rw [e1]; omega

/-- The residual's block at point t holds samples 2 t and 2 t + 1. -/
theorem block5_at (c : Dev nD) (t : Fin cfg1.N) (a : Fin 2) (d : Fin 256) (q : Fin 1088) :
    (iblk1 (F := Ideal) V c 5 t : Vec Ideal S2x256x1088 .f32) (ix3 a d q)
      = (V c main_v45 : S64x256x1088.Idx → EReal)
          (ix3 (⟨t.val * 2 + a.val, by have := a.isLt; have := t.isLt; have hN : cfg1.N = 32 := N_1; omega⟩ : Fin 64) d q) := by
  obtain ⟨-, -, -, -, -, ⟨e0, e1, e2⟩, -⟩ := index_facts t
  unfold iblk1
  rw [View.read_apply]
  show V c main_v45 _ = V c main_v45 _
  refine congrArg _ (funext fun ax => Fin.ext ?_)
  match ax with
  | ⟨0, _⟩ => show win1_5.index t (0 : Fin 3) * 2 + 1 * a.val = t.val * 2 + a.val; rw [e0]; omega
  | ⟨1, _⟩ => show win1_5.index t (1 : Fin 3) * 256 + 1 * d.val = d.val; rw [e1]; omega
  | ⟨2, _⟩ => show win1_5.index t (2 : Fin 3) * 1088 + 1 * q.val = q.val; rw [e2]; omega

/-! ## From the blocks to the array -/

/-- The whole output array as one function of the arrays the region finds: entry (n, d, q) is the normalised,
    shifted, residual-added and clamped value at sample n. -/
def wholeOut (c : Dev nD) : S64x256x1088.Idx → EReal := fun i =>
  bnAt (V c main_v24) (V c main_v29) (V c main_v34) (V c main_v39) (V c main_v44) (V c main_v45) (i 0) (i 1) (i 2)

theorem wholeOut_at (c : Dev nD) (n : Fin 64) (d : Fin 256) (q : Fin 1088) :
    wholeOut V c (ix3 n d q)
      = bnAt (V c main_v24) (V c main_v29) (V c main_v34) (V c main_v39) (V c main_v44) (V c main_v45) n d q := rfl

set_option maxHeartbeats 400000 in
/-- What point t writes back is block t of the whole-array function: the two samples 2 t and 2 t + 1. -/
theorem flushed_eq (c : Dev nD) (t : Fin cfg1.N) :
    (dat1 (F := Ideal) V c).flushed 6 t = ((cfg1.win 6).blk t).view.read (Elt Ideal) (wholeOut V c) := by
  show (cfg1.win 6).cut (grid1.coords t) ((dat1 (F := Ideal) V c).after 6 t) = _
  rw [after1_6]
  unfold out1_6
  rw [View.canon_unit_zero hz3]
  simp only [View.ld_unit_zero (S := S2x64x17x256) hz4, View.ld_unit_zero (S := S256x1088) hz2,
    View.ld_unit_zero (S := S2x256x1088) hz3]
  funext j
  have hN : cfg1.N = 32 := N_1
  have ht : t.val < 32 := by have := t.isLt; omega
  have hj0 : (j 0).val < 2 := (j 0).isLt
  have hj1 : (j 1).val < 256 := (j 1).isLt
  have hj2 : (j 2).val < 1088 := (j 2).isLt
  show k1_pay1 (F := Ideal) (iblk1 V c 0 t) (iblk1 V c 1 t) (iblk1 V c 2 t) (iblk1 V c 3 t) (iblk1 V c 4 t)
      (iblk1 V c 5 t) j = wholeOut V c (((cfg1.win 6).blk t).view.emb j)
  refine (congrArg (k1_pay1 (F := Ideal) (iblk1 V c 0 t) (iblk1 V c 1 t) (iblk1 V c 2 t) (iblk1 V c 3 t)
      (iblk1 V c 4 t) (iblk1 V c 5 t)) (eq_ix3 (n0 := 2) (n1 := 256) (n2 := 1088) j)).trans ?_
  refine (point_value (iblk1 V c 0 t) (iblk1 V c 1 t) (iblk1 V c 2 t) (iblk1 V c 3 t) (iblk1 V c 4 t)
      (iblk1 V c 5 t) (V c main_v24) (V c main_v29) (V c main_v34) (V c main_v39) (V c main_v44) (V c main_v45)
      t.val ht (block0_at V c t) (block1_at V c t) (block2_at V c t) (block3_at V c t) (block4_at V c t)
      (block5_at V c t) (j 0) (j 1) (j 2)).trans ?_
  have E : ((cfg1.win 6).blk t).view.emb j
      = (ix3 (⟨t.val * 2 + (j 0).val, by omega⟩ : Fin 64) (j 1) (j 2) : S64x256x1088.Idx) := by
    obtain ⟨-, -, -, -, -, -, ⟨e0, e1, e2⟩⟩ := index_facts t
    funext ax; apply Fin.ext
    match ax with
    | ⟨0, _⟩ => show win1_6.index t (0 : Fin 3) * 2 + 1 * (j 0).val = t.val * 2 + (j 0).val; rw [e0]; omega
    | ⟨1, _⟩ => show win1_6.index t (1 : Fin 3) * 256 + 1 * (j 1).val = (j 1).val; rw [e1]; omega
    | ⟨2, _⟩ => show win1_6.index t (2 : Fin 3) * 1088 + 1 * (j 2).val = (j 2).val; rw [e2]; omega
  exact (congrArg (wholeOut V c) E).symm

/-- An index of the output array lies in point t's block iff each coordinate lies in the block's range. -/
theorem mem_block (t : Fin cfg1.N) (i : S64x256x1088.Idx) :
    i ∈ ((cfg1.win 6).blk t).view.set ↔ ∀ a : Fin 3, win1_6.index t a * S2x256x1088.size a ≤ (i a).val
      ∧ (i a).val < win1_6.index t a * S2x256x1088.size a + S2x256x1088.size a := by
  show i ∈ ((View.whole main_v46).slice (win1_6.rect t)).set ↔ _
  rw [View.set_slice_whole, Rect.mem_set_unit]
  exact Iff.rfl

/-- Every entry of the output array is written back by some point: sample n by point n / 2. -/
theorem covered (i : S64x256x1088.Idx) :
    ∃ t : Fin cfg1.N, (cfg1.win 6).flush t = true ∧ i ∈ ((cfg1.win 6).blk t).view.set := by
  have hN : cfg1.N = 32 := N_1
  have hi0 : (i 0).val < 64 := (i 0).isLt
  have hi1 : (i 1).val < 256 := (i 1).isLt
  have hi2 : (i 2).val < 1088 := (i 2).isLt
  obtain ⟨t, htv⟩ : ∃ t : Fin cfg1.N, t.val = (i 0).val / 2 := ⟨⟨(i 0).val / 2, by omega⟩, rfl⟩
  obtain ⟨-, -, -, -, -, -, ⟨e0, e1, e2⟩⟩ := index_facts t
  refine ⟨t, flush1_6 t, ?_⟩
  rw [mem_block]
  intro a
  match a with
  | ⟨0, _⟩ =>
    show win1_6.index t (0 : Fin 3) * 2 ≤ (i 0).val ∧ (i 0).val < win1_6.index t (0 : Fin 3) * 2 + 2
    rw [e0, htv]; omega
  | ⟨1, _⟩ =>
    show win1_6.index t (1 : Fin 3) * 256 ≤ (i 1).val ∧ (i 1).val < win1_6.index t (1 : Fin 3) * 256 + 256
    rw [e1]; omega
  | ⟨2, _⟩ =>
    show win1_6.index t (2 : Fin 3) * 1088 ≤ (i 2).val ∧ (i 2).val < win1_6.index t (2 : Fin 3) * 1088 + 1088
    rw [e2]; omega

/-- The output array after the region is the whole-array function. -/
theorem final_out (c : Dev nD) : (dat1 (F := Ideal) V c).arrAt 6 cfg1.N = wholeOut V c :=
  (dat1 (F := Ideal) V c).arrAt_eq_of_cover 6 (wholeOut V c) (fun t _ => flushed_eq V c t) covered

end Region1

theorem region1_value (c : Dev nD) (n : Fin 64) (d : Fin 256) (q : Fin 1088) :
    ((dat1 (F := Ideal) V c).arrAt 6 cfg1.N : S64x256x1088.Idx → EReal) (ix3 n d q)
      = bnAt (V c main_v24) (V c main_v29) (V c main_v34) (V c main_v39) (V c main_v44) (V c main_v45) n d q :=
  (congrFun (Region1.final_out V c) (ix3 n d q)).trans (Region1.wholeOut_at V c n d q)

end Cert.KernelIdeal.Blocks
end
-- ==== Proof.LibRsqrtQuotient.lean ====
/-
  On the extended reals: multiplying by a reciprocal square root is dividing by a square root, wherever the
  argument is positive.

  The reciprocal square root and the square root take conventional values off the positive half-line (at a negative
  number both answer the bottom element, at 0 the first answers the top and the second 0), and the quotient by 0 or by
  the bottom element has conventions of its own, so g · z^(-1/2) and g / √z are unrelated there. At the top element
  the reciprocal square root is 0 and the square root is the top, whose inverse is 0: both sides are g · 0. At a
  positive real r both sides are g · (√r)⁻¹, √r being a nonzero real. The usual instance is a batch-norm or
  layer-norm scale γ · (σ² + ε)^(-1/2) against γ / √(σ² + ε) with σ² ≥ 0 and ε a positive real: σ² + ε is then
  the top element or a positive real. Also here: the comparison "a ≥ 0" read back as an inequality.
-/
import Idealize.ShloMosaic.PureOps.Ideal
import Idealize.ShloMosaic.PureOps.Ideal.Laws

noncomputable section
namespace Cert.LibRsqrtQuotient
open Idealize.ShloMosaic

/-- On the extended reals the comparison "a is at least 0" answers 1 exactly when 0 ≤ a. -/
theorem nonneg_of_oge_zero {a : EReal} (h : Ideal.cmp .oge a 0 = 1#1) : 0 ≤ a := by
  by_contra hn
  have e : Ideal.cmp .oge a 0 = 0#1 := by simp [Ideal.cmp, hn]
  rw [e] at h
  exact absurd h (by decide)

/-- Multiplying by the reciprocal square root is dividing by the square root, at the top element and at every
    positive real: at the top both sides are g * 0, at a positive real r both are g * (√r)⁻¹ with √r ≠ 0. -/
theorem mul_rsqrt_eq_div_sqrt (g z : EReal) (hz : z = ⊤ ∨ ∃ r : ℝ, 0 < r ∧ z = (r : EReal)) :
    g * Ideal.rsqrt z = Ideal.div g (Ideal.sqrt z) := by
  rcases hz with rfl | ⟨r, hr, rfl⟩
  · rw [Ideal.rsqrt_top, Ideal.sqrt_top, Ideal.div, if_neg EReal.top_ne_zero, EReal.inv_top]
  · have hs : 0 < Real.sqrt r := Real.sqrt_pos.2 hr
    have hne : ((Real.sqrt r : ℝ) : EReal) ≠ 0 := by
      rw [Ne, EReal.coe_eq_zero]; exact hs.ne'
    have e1 : Ideal.rsqrt (r : EReal) = (((Real.sqrt r)⁻¹ : ℝ) : EReal) := by
      rw [Ideal.rsqrt_coe, if_neg (not_lt.2 hr.le), if_neg hr.ne']
    have e2 : Ideal.sqrt (r : EReal) = ((Real.sqrt r : ℝ) : EReal) := by
      rw [Ideal.sqrt_coe, if_neg (not_lt.2 hr.le)]
    rw [e1, e2, Ideal.div, if_neg hne, EReal.coe_inv]

/-- For 0 ≤ s (the top element included) and a positive real e, the scale g · (s + e)^(-1/2) is the quotient
    g / √(s + e). -/
theorem mul_rsqrt_add_pos (g s : EReal) (e : ℝ) (he : 0 < e) (hs : 0 ≤ s) :
    g * Ideal.rsqrt (s + (e : EReal)) = Ideal.div g (Ideal.sqrt (s + (e : EReal))) := by
  refine mul_rsqrt_eq_div_sqrt g _ ?_
  induction s using EReal.rec with
  | bot => exact absurd hs (by simp)
  | top => exact Or.inl (EReal.top_add_coe e)
  | coe r =>
    have hr : 0 ≤ r := EReal.coe_nonneg.1 hs
    exact Or.inr ⟨r + e, by linarith, (EReal.coe_add r e).symm⟩

end Cert.LibRsqrtQuotient
end
-- ==== Proof.Domain.lean ====
import proofs.«142541_j8495445311793_2_alg».proof.Pre_finite_inputs
import proofs.«142541_j8495445311793_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import proofs.«142541_j8495445311793_2_alg».proof.Proof.LibRsqrtQuotient

noncomputable section
namespace Cert.Pre_finite_inputs.Domain
open Idealize.ShloMosaic Idealize.ShloMosaic.ValueIdx Cert.Pre_finite_inputs Cert.LibRsqrtQuotient

/-!
# The domain of the variance, and the scale as a quotient

Two facts about the batch-normalisation scale, both on the extended reals.

* The precondition is a conjunction of "all entries satisfy ..." statements; its last conjunct says that every
  entry of the variance vector is at least 0. Reading that conjunct back gives 0 ≤ var k for every k.
* The scale is written on one side as g * (s + ε)^(-1/2) and on the other as g / √(s + ε), where ε is the
  positive real 10995116 / 2^40. For 0 ≤ s the sum z = s + ε is either the top element or a positive real r.
  At the top, the reciprocal square root is 0 and the square root is the top, whose inverse is 0: both sides
  are g * 0. At a positive real r, the reciprocal square root is (√r)⁻¹ and the square root is √r ≠ 0, so the
  quotient is g * (√r)⁻¹ as well. Nonnegativity of s is what keeps z away from 0 and from the negative reals,
  where the two operations take unrelated conventional values.
-/

/-- The rank-0 shape has a single index. -/
instance : Subsingleton S_.Idx := ⟨fun a b => funext fun d => d.elim0⟩

/-- A conjunction of two one-bit vectors is 1 at an index only where both are. -/
theorem andi_vec_eq_one {s : Shape} (a b : IVec s 1) (i : s.Idx) (h : andi a b i = 1#1) :
    a i = 1#1 ∧ b i = 1#1 := IntOp.andi_eq_one.1 h

/-- Under the precondition every variance entry is nonnegative. -/
theorem var_nonneg [Cert.Pre_finite_inputs.Facts] (x0 : FVec Ideal S64x256x64x17 .f32) (x1 : FVec Ideal S1x17x256 .f32) (x2 : FVec Ideal S256x256 .f32)
    (x3 : FVec Ideal S1x1x256 .f32) (x4 x5 x6 x7 : FVec Ideal S4352 .f32) (x8 x9 : IVec S4352 32)
    (h : Cert.Pre_finite_inputs.fn (F := Ideal) x0 x1 x2 x3 x4 x5 x6 x7 x8 x9 = (fun _ => 1#1)) (k : Fin 4352) :
    (0 : EReal) ≤ x7 (ix1 k) := by
  have h0 := congrFun h ValueIdx.ix0
  dsimp only [Cert.Pre_finite_inputs.fn, Cert.Pre_finite_inputs.fn_part1, Cert.Pre_finite_inputs.fn_part2] at h0
  have h1 := (andi_vec_eq_one _ _ _ h0).2
  have h2 := Host.reduce_andi_all _ _ _ _ _ h1 (ix1 k)
  -- at index k the comparison is of var k against the broadcast zero constant, which reads as the constant's value
  have h3 : Ideal.cmp .oge (x7 (ix1 k)) (Ideal.ofBits .f32 0x00000000#32) = 1#1 := h2
  rw [Ideal.ofBits_zero_f32] at h3
  exact nonneg_of_oge_zero h3

/-- The word 0x3727C5AC denotes the positive real 10995116 / 2^40 (sign 0, exponent field 110, fraction 0x27C5AC). -/
theorem eps_pos : ∃ e : ℝ, 0 < e ∧ Ideal.ofBits .f32 0x3727C5AC#32 = (e : EReal) := by
  refine ⟨10995116 * (2 ^ 40)⁻¹, by positivity, ?_⟩
  simp [Ideal.ofBits, Ideal.ieee]

/-- For a nonnegative variance s the scale g · (s + ε)^(-1/2) is the quotient g / √(s + ε): ε is a positive real. -/
theorem scale_eq (g s : EReal) (hs : 0 ≤ s) :
    g * Ideal.rsqrt (s + Ideal.ofBits .f32 0x3727C5AC#32) = Ideal.div g (Ideal.sqrt (s + Ideal.ofBits .f32 0x3727C5AC#32)) := by
  obtain ⟨e, he, hε⟩ := eps_pos
  rw [hε]
  exact mul_rsqrt_add_pos g s e he hs

end Cert.Pre_finite_inputs.Domain
end
-- ==== Proof.KIdx.lean ====
import proofs.«142541_j8495445311793_2_alg».proof.Proof.KHost
import Idealize.ShloMosaic.Lib.ValueIdx
import Idealize.ShloMosaic.Lib.Pipeline.Value

noncomputable section
namespace Cert.KernelIdeal.Whole
open Idealize.ShloMosaic Idealize.ShloMosaic.TcCoe Idealize.SL.Sem Idealize.ShloMosaic.ValueIdx
open Cert.KernelIdeal Cert.KernelIdeal.Gen

/-! The stages of a parameter table, each read at coordinates. -/

/-- Position frame * 17 + joint of a table row is entry (frame, joint) of the three-axis array. -/
theorem cast_table_at (B : FVec Ideal S256x64x17 .f32) (d : Fin 256) (t : Fin 64) (v : Fin 17)
    (h : t.val * 17 + v.val < 1088) :
    shapeCast S256x1088 B shapeCasts_S256x64x17_S256x1088 (ix2 d (⟨t.val * 17 + v.val, h⟩ : Fin 1088))
      = B (ix3 d t v) :=
  shapeCast_apply B shapeCasts_S256x64x17_S256x1088 (ix2 d (⟨t.val * 17 + v.val, h⟩ : Fin 1088)) (ix3 d t v)
    (by rewrite [Shape.rowMajor_val_three, Shape.rowMajor_val_two]
        have hd := d.isLt; have ht := t.isLt; have hv := v.isLt
        show (d.val * 64 + t.val) * 17 + v.val = d.val * 1088 + (t.val * 17 + v.val); omega)

/-- The table is constant along the frame axis. -/
theorem bcast_frames_at (B : FVec Ideal S256x1x17 .f32) (d : Fin 256) (t : Fin 64) (v : Fin 17) :
    broadcastInDim S256x64x17 ![0, 1, 2] bcast_S256x1x17_S256x64x17_0_1_2 B (ix3 d t v) = B (ix3 d (0 : Fin 1) v) :=
  broadcastInDim_apply _ bcast_S256x1x17_S256x64x17_0_1_2 B (ix3 d t v) (ix3 d (0 : Fin 1) v) (fun a => match a with
    | ⟨0, _⟩ => by show d.val = if (256 : Nat) = 1 then 0 else d.val; rw [if_neg (by decide)]
    | ⟨1, _⟩ => by show 0 = if (1 : Nat) = 1 then 0 else t.val; rw [if_pos rfl]
    | ⟨2, _⟩ => by show v.val = if (17 : Nat) = 1 then 0 else v.val; rw [if_neg (by decide)])

/-- The unit frame axis is put between channel and joint. -/
theorem bcast_unit_at (B : FVec Ideal S256x17 .f32) (d : Fin 256) (v : Fin 17) :
    broadcastInDim S256x1x17 ![0, 2] bcast_S256x17_S256x1x17_0_2 B (ix3 d (0 : Fin 1) v) = B (ix2 d v) :=
  broadcastInDim_apply _ bcast_S256x17_S256x1x17_0_2 B (ix3 d (0 : Fin 1) v) (ix2 d v) (fun a => match a with
    | ⟨0, _⟩ => by show d.val = if (256 : Nat) = 1 then 0 else d.val; rw [if_neg (by decide)]
    | ⟨1, _⟩ => by show v.val = if (17 : Nat) = 1 then 0 else v.val; rw [if_neg (by decide)])

/-- Channel and joint change places. -/
theorem transpose_table_at (B : FVec Ideal S17x256 .f32) (d : Fin 256) (v : Fin 17) :
    transpose S256x17 [1, 0] B transposes_S17x256_S256x17_1_0 (ix2 d v) = B (ix2 v d) :=
  transpose_apply [1, 0] B transposes_S17x256_S256x17_1_0 (ix2 d v) (ix2 v d) (fun b => match b with
    | ⟨0, _⟩ => rfl
    | ⟨1, _⟩ => rfl)

/-- Entry (joint, channel) of the two-axis parameter is the flat parameter at joint * 256 + channel. -/
theorem cast_param_at (p : FVec Ideal S4352 .f32) (v : Fin 17) (d : Fin 256) (h : v.val * 256 + d.val < 4352) :
    shapeCast S17x256 p shapeCasts_S4352_S17x256 (ix2 v d) = p (ix1 (⟨v.val * 256 + d.val, h⟩ : Fin 4352)) :=
  shapeCast_apply p shapeCasts_S4352_S17x256 (ix2 v d) (ix1 (⟨v.val * 256 + d.val, h⟩ : Fin 4352))
    (by rewrite [Shape.rowMajor_val_one, Shape.rowMajor_val_two]
        show v.val * 256 + d.val = v.val * 256 + d.val; rfl)

/-- A parameter table at (channel d, position t·17 + v) is the parameter at joint·256 + channel. -/
theorem tableOf_at (p : FVec Ideal S4352 .f32) (d : Fin 256) (t : Fin 64) (v : Fin 17) :
    tableOf p (ix2 d (⟨t.val * 17 + v.val, by have := t.isLt; have := v.isLt; omega⟩ : Fin 1088))
      = p (ix1 (⟨v.val * 256 + d.val, by have := v.isLt; have := d.isLt; omega⟩ : Fin 4352)) := by
  unfold tableOf
  exact (cast_table_at _ d t v _).trans ((bcast_frames_at _ d t v).trans ((bcast_unit_at _ d v).trans
    ((transpose_table_at _ d v).trans (cast_param_at p v d _))))

/-- Row r·17 + v of the rows cut per (sample·frame, joint) is columns v·256 … of row r. -/
theorem rows_cut_at (X : FVec Ideal S4096x4352 .f32) (r : Fin 4096) (v : Fin 17) (k : Fin 256) :
    shapeCast S69632x256 X shapeCasts_S4096x4352_S69632x256
        (ix2 (⟨r.val * 17 + v.val, by have := r.isLt; have := v.isLt; omega⟩ : Fin 69632) k)
      = X (ix2 r (⟨v.val * 256 + k.val, by have := v.isLt; have := k.isLt; omega⟩ : Fin 4352)) := by
  refine shapeCast_apply X shapeCasts_S4096x4352_S69632x256 _ _ ?_
  rewrite [Shape.rowMajor_val_two, Shape.rowMajor_val_two]
  have hr := r.isLt; have hv := v.isLt; have hk := k.isLt
  show r.val * 4352 + (v.val * 256 + k.val) = (r.val * 17 + v.val) * 256 + k.val; omega

theorem bias_at (b : FVec Ideal S1x1x256 .f32) (d : Fin 256) :
    shapeCast S1x256 b shapeCasts_S1x1x256_S1x256 (ix2 (0 : Fin 1) d) = b (ix3 (0 : Fin 1) (0 : Fin 1) d) := by
  refine shapeCast_apply b shapeCasts_S1x1x256_S1x256 _ _ ?_
  rewrite [Shape.rowMajor_val_three, Shape.rowMajor_val_two]
  show (0 * 1 + 0) * 256 + d.val = 0 * 256 + d.val; omega

/-- The first grid computation's result flattened back to one row per (sample·frame). -/
theorem lin_flat_at (A : FVec Ideal S69632x256 .f32) (r : Fin 4096) (v : Fin 17) (d : Fin 256) :
    shapeCast S4096x4352 (shapeCast S4096x17x256 A shapeCasts_S69632x256_S4096x17x256) shapeCasts_S4096x17x256_S4096x4352
        (ix2 r (⟨v.val * 256 + d.val, by have := v.isLt; have := d.isLt; omega⟩ : Fin 4352))
      = A (ix2 (⟨r.val * 17 + v.val, by have := r.isLt; have := v.isLt; omega⟩ : Fin 69632) d) := by
  refine (shapeCast_apply (shapeCast S4096x17x256 A shapeCasts_S69632x256_S4096x17x256)
    shapeCasts_S4096x17x256_S4096x4352 _ (ix3 r v d) ?_).trans
    (shapeCast_apply A shapeCasts_S69632x256_S4096x17x256 (ix3 r v d) _ ?_)
  · rewrite [Shape.rowMajor_val_three, Shape.rowMajor_val_two]
    have hr := r.isLt; have hv := v.isLt; have hd := d.isLt
    show (r.val * 17 + v.val) * 256 + d.val = r.val * 4352 + (v.val * 256 + d.val); omega
  · rewrite [Shape.rowMajor_val_two, Shape.rowMajor_val_three]
    show (r.val * 17 + v.val) * 256 + d.val = (r.val * 17 + v.val) * 256 + d.val; rfl

theorem rows4_at (G : FVec Ideal S4096x4352 .f32) (n : Fin 64) (t : Fin 64) (v : Fin 17) (d : Fin 256) :
    shapeCast S64x64x17x256 G shapeCasts_S4096x4352_S64x64x17x256 (ix4 n t v d)
      = G (ix2 (⟨n.val * 64 + t.val, by have := n.isLt; have := t.isLt; omega⟩ : Fin 4096)
               (⟨v.val * 256 + d.val, by have := v.isLt; have := d.isLt; omega⟩ : Fin 4352)) := by
  refine shapeCast_apply G shapeCasts_S4096x4352_S64x64x17x256 _ _ ?_
  rewrite [Shape.rowMajor_val_two, Shape.rowMajor_val_four]
  have hn := n.isLt; have ht := t.isLt; have hv := v.isLt; have hd := d.isLt
  show (n.val * 64 + t.val) * 4352 + (v.val * 256 + d.val) = ((n.val * 64 + t.val) * 17 + v.val) * 256 + d.val; omega

theorem input_flat_at (x0 : FVec Ideal S64x256x64x17 .f32) (n : Fin 64) (d : Fin 256) (t : Fin 64) (v : Fin 17) :
    shapeCast S64x256x1088 x0 shapeCasts_S64x256x64x17_S64x256x1088
        (ix3 n d (⟨t.val * 17 + v.val, by have := t.isLt; have := v.isLt; omega⟩ : Fin 1088))
      = x0 (ix4 n d t v) := by
  refine shapeCast_apply x0 shapeCasts_S64x256x64x17_S64x256x1088 _ _ ?_
  rewrite [Shape.rowMajor_val_four, Shape.rowMajor_val_three]
  have hn := n.isLt; have hd := d.isLt; have ht := t.isLt; have hv := v.isLt
  show ((n.val * 256 + d.val) * 64 + t.val) * 17 + v.val = (n.val * 256 + d.val) * 1088 + (t.val * 17 + v.val); omega

theorem result_cut_at (A : FVec Ideal S64x256x1088 .f32) (n : Fin 64) (d : Fin 256) (t : Fin 64) (v : Fin 17) :
    shapeCast S64x256x64x17 A shapeCasts_S64x256x1088_S64x256x64x17 (ix4 n d t v)
      = A (ix3 n d (⟨t.val * 17 + v.val, by have := t.isLt; have := v.isLt; omega⟩ : Fin 1088)) := by
  refine shapeCast_apply A shapeCasts_S64x256x1088_S64x256x64x17 _ _ ?_
  rewrite [Shape.rowMajor_val_three, Shape.rowMajor_val_four]
  have hn := n.isLt; have hd := d.isLt; have ht := t.isLt; have hv := v.isLt
  show (n.val * 256 + d.val) * 1088 + (t.val * 17 + v.val) = ((n.val * 256 + d.val) * 64 + t.val) * 17 + v.val; omega

end Cert.KernelIdeal.Whole
end
-- ==== Proof.RefValue.lean ====
import proofs.«142541_j8495445311793_2_alg».proof.Proof.Gen.ReferenceIdeal.Read
import Idealize.ShloMosaic.Lib.ValueIdx
import Idealize.ShloMosaic.Lib.Pipeline.Value
import Idealize.ShloMosaic.PureOps.Ideal.Laws

noncomputable section
namespace Cert.ReferenceIdeal.RefValue
open Idealize.ShloMosaic Idealize.ShloMosaic.TcCoe Idealize.SL.Sem Idealize.ShloMosaic.ValueIdx
open Cert.ReferenceIdeal Cert.ReferenceIdeal.Gen Cert.ReferenceIdeal.Read

/-! The reference program read at an index. Its linear stage is a contraction over the channel axis of the
    gathered input, scaled per (joint, channel), against the weight matrix, plus a bias; its result is that
    stage gathered once more, normalised per flat column joint * 256 + channel, with the input added back and
    the sum clamped at zero. The two gathers stay as they are on the right-hand sides. -/

/-! Index equations: each layout stage of the reference, read at coordinates. A flat column of the
    4096 x 4352 matrix is joint * 256 + channel; a flat row is sample * 64 + frame. -/

/-- Column joint * 256 + channel of the flat matrix is entry (joint, channel) of the 4096 x 17 x 256 array. -/
theorem idx18_eq (r : Fin 4096) (v : Fin 17) (d : Fin 256) (h : v.val * 256 + d.val < 4352) :
    idx_main_v18 (ix2 r (⟨v.val * 256 + d.val, h⟩ : Fin 4352)) = ix3 r v d :=
  funext fun a => Fin.ext (by
    have hr := r.isLt; have hv := v.isLt; have hd := d.isLt
    match a with
    | ⟨0, _⟩ => show (r.val * 4352 + (v.val * 256 + d.val)) / 4352 = r.val; omega
    | ⟨1, _⟩ => show (r.val * 4352 + (v.val * 256 + d.val)) / 256 % 17 = v.val; omega
    | ⟨2, _⟩ => show (r.val * 4352 + (v.val * 256 + d.val)) % 256 = d.val; omega)

/-- The converse reshape: entry (joint, channel) sits at column joint * 256 + channel. -/
theorem idx9_eq (r : Fin 4096) (v : Fin 17) (k : Fin 256) (h : v.val * 256 + k.val < 4352) :
    idx_main_v9 (ix3 r v k) = ix2 r (⟨v.val * 256 + k.val, h⟩ : Fin 4352) :=
  funext fun a => Fin.ext (by
    have hr := r.isLt; have hv := v.isLt; have hk := k.isLt
    match a with
    | ⟨0, _⟩ => show ((r.val * 17 + v.val) * 256 + k.val) / 4352 = r.val; omega
    | ⟨1, _⟩ => show ((r.val * 17 + v.val) * 256 + k.val) % 4352 = v.val * 256 + k.val; omega)

/-- The contraction reads the left operand along its last axis. -/
theorem lidx15_eq (r : Fin 4096) (v : Fin 17) (d k : Fin 256) :
    lidx_main_v15 (ix3 r v d) k = ix3 r v k :=
  funext fun a => match a with | ⟨0, _⟩ => rfl | ⟨1, _⟩ => rfl | ⟨2, _⟩ => rfl

/-- The contraction reads the weight along its first axis, at the result's channel. -/
theorem ridx15_eq (r : Fin 4096) (v : Fin 17) (d k : Fin 256) :
    ridx_main_v15 (ix3 r v d) k = ix2 k d :=
  funext fun a => match a with | ⟨0, _⟩ => rfl | ⟨1, _⟩ => rfl

/-- The bias is broadcast along rows and joints. -/
theorem idx16_eq (r : Fin 4096) (v : Fin 17) (d : Fin 256) :
    idx_main_v16 (ix3 r v d) = ix3 (0 : Fin 1) (0 : Fin 1) d :=
  funext fun a => match a with | ⟨0, _⟩ => rfl | ⟨1, _⟩ => rfl | ⟨2, _⟩ => rfl

/-- The per-joint scale is broadcast along rows. -/
theorem idx13_eq (r : Fin 4096) (v : Fin 17) (k : Fin 256) :
    idx_main_v13 (ix3 r v k) = ix3 (0 : Fin 1) v k :=
  funext fun a => match a with | ⟨0, _⟩ => rfl | ⟨1, _⟩ => rfl | ⟨2, _⟩ => rfl

/-- The linear stage of the reference, flattened to (sample·frame, joint·channel), read at an index. -/
theorem lin_at (x0 : FVec Ideal S64x256x64x17 .f32) (x1 : FVec Ideal S1x17x256 .f32) (x2 : FVec Ideal S256x256 .f32)
    (x3 : FVec Ideal S1x1x256 .f32) (x8 : IVec S4352 32) (r : Fin 4096) (v : Fin 17) (d : Fin 256) :
    val_main_v18 (F := Ideal) x0 x1 x2 x3 x8 (ix2 r (⟨v.val * 256 + d.val, by have := v.isLt; have := d.isLt; omega⟩ : Fin 4352))
      = (∑ k : Fin 256, (val_main_v8 (F := Ideal) x0 x8 (ix2 r (⟨v.val * 256 + k.val, by have := v.isLt; have := k.isLt; omega⟩ : Fin 4352))
            * val_main_v12 (F := Ideal) x1 (ix3 (0 : Fin 1) v k)) * x2 (ix2 k d))
        + x3 (ix3 (0 : Fin 1) (0 : Fin 1) d) := by
  rw [val_main_v18_apply, idx18_eq, val_main_v17_apply, val_main_v15_apply, val_main_v16_apply, idx16_eq,
    Ideal.addf_def]
  refine congrArg (fun s => s + x3 (ix3 (0 : Fin 1) (0 : Fin 1) d)) ?_
  refine Finset.sum_congr rfl fun k _ => ?_
  rw [lidx15_eq, ridx15_eq, val_main_v14_apply, val_main_v9_apply, idx9_eq, val_main_v13_apply, idx13_eq,
    Ideal.mulf_def]

/-- The final transpose sends result (sample, channel, frame, joint) to operand (sample, frame, joint, channel). -/
theorem idx40_eq (n : Fin 64) (d : Fin 256) (t : Fin 64) (v : Fin 17) :
    idx_main_v40 (ix4 n d t v) = ix4 n t v d :=
  funext fun a => match a with | ⟨0, _⟩ => rfl | ⟨1, _⟩ => rfl | ⟨2, _⟩ => rfl | ⟨3, _⟩ => rfl

/-- Entry (sample, frame, joint, channel) sits at row sample * 64 + frame, column joint * 256 + channel of the flat matrix. -/
theorem idx39_eq (n : Fin 64) (t : Fin 64) (v : Fin 17) (d : Fin 256)
    (hr : n.val * 64 + t.val < 4096) (hc : v.val * 256 + d.val < 4352) :
    idx_main_v39 (ix4 n t v d)
      = ix2 (⟨n.val * 64 + t.val, hr⟩ : Fin 4096) (⟨v.val * 256 + d.val, hc⟩ : Fin 4352) :=
  funext fun a => Fin.ext (by
    have hn := n.isLt; have ht := t.isLt; have hv := v.isLt; have hd := d.isLt
    match a with
    | ⟨0, _⟩ => show (((n.val * 64 + t.val) * 17 + v.val) * 256 + d.val) / 4352 = n.val * 64 + t.val; omega
    | ⟨1, _⟩ => show (((n.val * 64 + t.val) * 17 + v.val) * 256 + d.val) % 4352 = v.val * 256 + d.val; omega)

/-- A per-column vector broadcast along rows (the mean's). -/
theorem idx27_eq (R : Fin 4096) (C : Fin 4352) : idx_main_v27 (ix2 R C) = ix2 (0 : Fin 1) C :=
  funext fun a => match a with | ⟨0, _⟩ => rfl | ⟨1, _⟩ => rfl
theorem idx26_eq (C : Fin 4352) : idx_main_v26 (ix2 (0 : Fin 1) C) = ix1 C :=
  funext fun a => match a with | ⟨0, _⟩ => rfl
/-- The same for the scale. -/
theorem idx34_eq (R : Fin 4096) (C : Fin 4352) : idx_main_v34 (ix2 R C) = ix2 (0 : Fin 1) C :=
  funext fun a => match a with | ⟨0, _⟩ => rfl | ⟨1, _⟩ => rfl
theorem idx33_eq (C : Fin 4352) : idx_main_v33 (ix2 (0 : Fin 1) C) = ix1 C :=
  funext fun a => match a with | ⟨0, _⟩ => rfl
/-- The same for the shift. -/
theorem idx37_eq (R : Fin 4096) (C : Fin 4352) : idx_main_v37 (ix2 R C) = ix2 (0 : Fin 1) C :=
  funext fun a => match a with | ⟨0, _⟩ => rfl | ⟨1, _⟩ => rfl
theorem idx36_eq (C : Fin 4352) : idx_main_v36 (ix2 (0 : Fin 1) C) = ix1 C :=
  funext fun a => match a with | ⟨0, _⟩ => rfl

/-- The reference's result read at an index: the gathered linear stage normalised per (joint, channel), the
    residual added, clamped at zero. -/
theorem out_at (x0 : FVec Ideal S64x256x64x17 .f32) (x1 : FVec Ideal S1x17x256 .f32) (x2 : FVec Ideal S256x256 .f32)
    (x3 : FVec Ideal S1x1x256 .f32) (x4 x5 x6 x7 : FVec Ideal S4352 .f32) (x8 x9 : IVec S4352 32)
    (n : Fin 64) (d : Fin 256) (t : Fin 64) (v : Fin 17) :
    val_main_v42 (F := Ideal) x0 x1 x2 x3 x4 x5 x6 x7 x8 x9 (ix4 n d t v)
      = max ((((val_main_v25 (F := Ideal) x0 x1 x2 x3 x8 x9
                  (ix2 (⟨n.val * 64 + t.val, by have := n.isLt; have := t.isLt; omega⟩ : Fin 4096)
                       (⟨v.val * 256 + d.val, by have := v.isLt; have := d.isLt; omega⟩ : Fin 4352))
                - x6 (ix1 (⟨v.val * 256 + d.val, by have := v.isLt; have := d.isLt; omega⟩ : Fin 4352)))
              * Ideal.div (x4 (ix1 (⟨v.val * 256 + d.val, by have := v.isLt; have := d.isLt; omega⟩ : Fin 4352)))
                  (Ideal.sqrt (x7 (ix1 (⟨v.val * 256 + d.val, by have := v.isLt; have := d.isLt; omega⟩ : Fin 4352))
                    + Ideal.ofBits .f32 0x3727C5AC#32)))
            + x5 (ix1 (⟨v.val * 256 + d.val, by have := v.isLt; have := d.isLt; omega⟩ : Fin 4352)))
          + x0 (ix4 n d t v))
        (Ideal.ofBits .f32 0x00000000#32) := by
  have hr : n.val * 64 + t.val < 4096 := by have := n.isLt; have := t.isLt; omega
  have hc : v.val * 256 + d.val < 4352 := by have := v.isLt; have := d.isLt; omega
  rw [val_main_v42_apply, val_main_call0_v0_apply, val_main_call0_cst_apply, val_main_v41_apply,
    val_main_v40_apply, idx40_eq, val_main_v39_apply, idx39_eq n t v d hr hc,
    val_main_v38_apply, val_main_v37_apply, idx37_eq, val_main_v36_apply, idx36_eq,
    val_main_v35_apply, val_main_v34_apply, idx34_eq, val_main_v33_apply, idx33_eq,
    val_main_v32_apply, val_main_v31_apply, val_main_v30_apply, val_main_v29_apply, val_main_cst_3_apply,
    val_main_v28_apply, val_main_v27_apply, idx27_eq, val_main_v26_apply, idx26_eq]
  simp only [Ideal.maximumf_def, Ideal.addf_def, Ideal.mulf_def, Ideal.subf_def, Ideal.hostDivf_def,
    Ideal.hostUnary_sqrt_def, Ideal.ofBits_def]

end Cert.ReferenceIdeal.RefValue
end
-- ==== Proof.Bridge1.lean ====
import proofs.«142541_j8495445311793_2_alg».proof.Proof.KHost
import proofs.«142541_j8495445311793_2_alg».proof.Proof.KIdx
import proofs.«142541_j8495445311793_2_alg».proof.Proof.RefValue
import proofs.«142541_j8495445311793_2_alg».proof.Proof.Spec
import Idealize.ShloMosaic.Lib.ValueIdx
import Idealize.ShloMosaic.Lib.Pipeline.Value

noncomputable section
namespace Cert.Bridge
open Idealize.ShloMosaic Idealize.ShloMosaic.TcCoe Idealize.SL.Sem Idealize.ShloMosaic.ValueIdx
open Cert.ShiftGcn Cert.KernelIdeal Cert.KernelIdeal.Gen Cert.KernelIdeal.Whole

/-!
# The linear stage of the kernel program is the reference's

Both programs begin with the same host operations: the input is transposed to (sample, frame, joint, channel),
flattened to one row per (sample, frame) with columns joint * 256 + channel, and its columns are gathered
through the shift table (a negative table entry first moved up by the table's length); the gate is tanh of
the mask plus one. Written out, the two front ends are the same term, so they are equal by unfolding.

The kernel program then cuts each row into 17 rows of 256 entries, one per joint: cut row r * 17 + v holds
columns v * 256 .. v * 256 + 255 of row r, and its joint is (r * 17 + v) mod 17 = v. Its first grid
computation gives, at cut row r * 17 + v and output channel d, the sum over k of
(row entry k * gate (v, k)) * weight (k, d), plus bias d. Flattened back to one row per (sample, frame),
that entry sits at row r, column v * 256 + d. The reference's linear stage at row r, column v * 256 + d is the
same sum with the same bias, read through its own reshapes. Every column below 17 * 256 is v * 256 + d for
one joint v and one channel d, so the two arrays agree at every index.
-/

set_option maxHeartbeats 400000 in
/-- The two programs' shared front end: the kernel program's rows and gate are the reference's stages. -/
theorem front_rows (x0 : FVec Ideal S64x256x64x17 .f32) (x8 : IVec S4352 32) :
    shiftCols (rowsOf x0) x8 = Cert.ReferenceIdeal.Read.val_main_v8 (F := Ideal) x0 x8 := by
  unfold shiftCols startIdx rowsOf
  unfold Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0
  rfl

theorem front_gate (x1 : FVec Ideal S1x17x256 .f32) :
    gateOf x1 = Cert.ReferenceIdeal.Read.val_main_v12 (F := Ideal) x1 := by
  unfold gateOf
  unfold Cert.ReferenceIdeal.Read.val_main_v12 Cert.ReferenceIdeal.Read.val_main_v11 Cert.ReferenceIdeal.Read.val_main_v10
    Cert.ReferenceIdeal.Read.val_main_cst
  rfl

/-- Every column index below 17 * 256 is joint * 256 + channel for one joint and one channel. -/
theorem col_split (q : Fin 4352) :
    ∃ (v : Fin 17) (d : Fin 256) (h : v.val * 256 + d.val < 4352), q = (⟨v.val * 256 + d.val, h⟩ : Fin 4352) := by
  have hq := q.isLt
  refine ⟨⟨q.val / 256, by omega⟩, ⟨q.val % 256, Nat.mod_lt _ (by norm_num)⟩, by show q.val / 256 * 256 + q.val % 256 < 4352; omega, ?_⟩
  exact Fin.ext (by show q.val = q.val / 256 * 256 + q.val % 256; omega)

/-- Row r * 17 + v of the cut rows belongs to joint v. -/
theorem joint_of_row (r : Fin 4096) (v : Fin 17) (h : (r.val * 17 + v.val) % 17 < 17) :
    (⟨(r.val * 17 + v.val) % 17, h⟩ : Fin 17) = v :=
  Fin.ext (by show (r.val * 17 + v.val) % 17 = v.val; have := v.isLt; omega)

/-- The linear stage at row r, column joint v * 256 + channel d: on the kernel side the entry is the gated
    product of cut row r * 17 + v, whose joint is v and whose k-th entry is column v * 256 + k of row r;
    on the reference side it is the same sum over k, with the same bias. -/
theorem lin_stage_at (A : FVec Ideal S69632x256 .f32)
    (x0 : FVec Ideal S64x256x64x17 .f32) (x1 : FVec Ideal S1x17x256 .f32)
    (x2 : FVec Ideal S256x256 .f32) (x3 : FVec Ideal S1x1x256 .f32)
    (x8 : IVec S4352 32)
    (hA : ∀ (R : Fin 69632) (d : Fin 256), A (ix2 R d)
      = linAt (shapeCast S69632x256 (shiftCols (rowsOf x0) x8) shapeCasts_S4096x4352_S69632x256)
          (gateOf x1) x2 (shapeCast S1x256 x3 shapeCasts_S1x1x256_S1x256) R d)
    (r : Fin 4096) (v : Fin 17) (d : Fin 256) :
    shapeCast S4096x4352
        (shapeCast S4096x17x256 A shapeCasts_S69632x256_S4096x17x256)
        shapeCasts_S4096x17x256_S4096x4352
        (ix2 r (⟨v.val * 256 + d.val, by have := v.isLt; have := d.isLt; omega⟩ : Fin 4352))
      = Cert.ReferenceIdeal.Read.val_main_v18 (F := Ideal) x0 x1 x2 x3 x8
        (ix2 r (⟨v.val * 256 + d.val, by have := v.isLt; have := d.isLt; omega⟩ : Fin 4352)) := by
  refine (lin_flat_at A r v d).trans ?_
  refine (hA _ d).trans ?_
  refine Eq.trans ?_ (Cert.ReferenceIdeal.RefValue.lin_at x0 x1 x2 x3 x8 r v d).symm
  unfold linAt
  rw [bias_at x3 d]
  refine congrArg (fun s => s + x3 (ix3 (0 : Fin 1) (0 : Fin 1) d)) ?_
  refine Finset.sum_congr rfl fun k _ => ?_
  rw [rows_cut_at (shiftCols (rowsOf x0) x8) r v k, joint_of_row r v, front_rows x0 x8, front_gate x1]

/-- The linear stage: an array whose entries are the gated row products of the kernel's first grid computation,
    flattened to one row per (sample·frame), IS the reference's linear stage. -/
theorem lin_stage_eq (A : FVec Ideal S69632x256 .f32)
    (x0 : FVec Ideal S64x256x64x17 .f32) (x1 : FVec Ideal S1x17x256 .f32)
    (x2 : FVec Ideal S256x256 .f32) (x3 : FVec Ideal S1x1x256 .f32)
    (x8 : IVec S4352 32)
    (hA : ∀ (R : Fin 69632) (d : Fin 256), A (ix2 R d)
      = linAt (shapeCast S69632x256 (shiftCols (rowsOf x0) x8) shapeCasts_S4096x4352_S69632x256)
          (gateOf x1) x2 (shapeCast S1x256 x3 shapeCasts_S1x1x256_S1x256) R d) :
    shapeCast S4096x4352
        (shapeCast S4096x17x256 A shapeCasts_S69632x256_S4096x17x256)
        shapeCasts_S4096x17x256_S4096x4352
      = Cert.ReferenceIdeal.Read.val_main_v18 (F := Ideal) x0 x1 x2 x3 x8 := by
  funext j
  obtain ⟨r, q, rfl⟩ : ∃ (r : Fin 4096) (q : Fin 4352), j = ix2 r q := ⟨j 0, j 1, eq_ix2 j⟩
  obtain ⟨v, d, h, rfl⟩ := col_split q
  exact lin_stage_at A x0 x1 x2 x3 x8 hA r v d

end Cert.Bridge
end
-- ==== Proof.Bridge2.lean ====
/-
  The closing stage. An array whose entry (n, d, t·17 + v) is the normalised, shifted, residual-added, clamped value
  of the gathered linear stage — with the scale written γ · (σ² + ε)^(-1/2) — cut into (sample, channel, frame,
  joint), is the reference's result, whose scale is the quotient γ / √(σ² + ε): for a nonnegative variance the two
  scales are one extended real, ε being a positive real. The gather through the output shift table is the same
  operation on both sides and is never opened.
-/
import proofs.«142541_j8495445311793_2_alg».proof.Proof.KHost
import proofs.«142541_j8495445311793_2_alg».proof.Proof.KIdx
import proofs.«142541_j8495445311793_2_alg».proof.Proof.RefValue
import proofs.«142541_j8495445311793_2_alg».proof.Proof.Domain
import proofs.«142541_j8495445311793_2_alg».proof.Proof.Spec
import Idealize.ShloMosaic.Lib.ValueIdx
import Idealize.ShloMosaic.Lib.Pipeline.Value

noncomputable section
namespace Cert.Bridge
open Idealize.ShloMosaic Idealize.ShloMosaic.TcCoe Idealize.SL.Sem Idealize.ShloMosaic.ValueIdx
open Cert.ShiftGcn Cert.KernelIdeal Cert.KernelIdeal.Gen Cert.KernelIdeal.Whole

/-- The columns of the reference's linear stage gathered through the output shift table: the reference's own
    gathered stage. -/
theorem back_rows (x0 : FVec Ideal S64x256x64x17 .f32) (x1 : FVec Ideal S1x17x256 .f32) (x2 : FVec Ideal S256x256 .f32)
    (x3 : FVec Ideal S1x1x256 .f32) (x8 x9 : IVec S4352 32) :
    shiftCols (Cert.ReferenceIdeal.Read.val_main_v18 (F := Ideal) x0 x1 x2 x3 x8) x9
      = Cert.ReferenceIdeal.Read.val_main_v25 (F := Ideal) x0 x1 x2 x3 x8 x9 := by
  unfold Cert.ReferenceIdeal.Read.val_main_v25
  generalize Cert.ReferenceIdeal.Read.val_main_v18 (F := Ideal) x0 x1 x2 x3 x8 = Y
  rfl

/-- The second grid computation's entry at a merged position t·17 + v, with the frame and the joint read off. -/
theorem bnAt_merged (y : FVec Ideal S64x64x17x256 .f32) (ga be mn vr : FVec Ideal S256x1088 .f32)
    (xr : FVec Ideal S64x256x1088 .f32) (n : Fin 64) (d : Fin 256) (t : Fin 64) (v : Fin 17)
    (h : t.val * 17 + v.val < 1088) :
    bnAt y ga be mn vr xr n d ⟨t.val * 17 + v.val, h⟩
      = max ((((y (ix4 n t v d) - mn (ix2 d (⟨t.val * 17 + v.val, h⟩ : Fin 1088)))
              * (ga (ix2 d (⟨t.val * 17 + v.val, h⟩ : Fin 1088))
                  * Ideal.rsqrt (vr (ix2 d (⟨t.val * 17 + v.val, h⟩ : Fin 1088)) + Ideal.ofBits .f32 0x3727C5AC#32)))
            + be (ix2 d (⟨t.val * 17 + v.val, h⟩ : Fin 1088))) + xr (ix3 n d (⟨t.val * 17 + v.val, h⟩ : Fin 1088)))
          (Ideal.ofBits .f32 0x00000000#32) := by
  have e1 : ∀ h1, (⟨(t.val * 17 + v.val) / 17, h1⟩ : Fin 64) = t := fun h1 => Fin.ext (by
    show (t.val * 17 + v.val) / 17 = t.val; have := v.isLt; omega)
  have e2 : ∀ h2, (⟨(t.val * 17 + v.val) % 17, h2⟩ : Fin 17) = v := fun h2 => Fin.ext (by
    show (t.val * 17 + v.val) % 17 = v.val; have := v.isLt; omega)
  unfold bnAt
  dsimp only
  rw [e1, e2]

/-- The kernel program's result array, cut into (sample, channel, frame, joint), is the reference's result. -/
theorem result_eq (A : FVec Ideal S64x256x1088 .f32) (L : FVec Ideal S4096x4352 .f32)
    (x0 : FVec Ideal S64x256x64x17 .f32) (x1 : FVec Ideal S1x17x256 .f32) (x2 : FVec Ideal S256x256 .f32)
    (x3 : FVec Ideal S1x1x256 .f32) (x4 x5 x6 x7 : FVec Ideal S4352 .f32) (x8 x9 : IVec S4352 32)
    (hA : ∀ (n : Fin 64) (d : Fin 256) (q : Fin 1088), A (ix3 n d q)
      = bnAt (shapeCast S64x64x17x256 (shiftCols L x9) shapeCasts_S4096x4352_S64x64x17x256)
          (tableOf x4) (tableOf x5) (tableOf x6) (tableOf x7)
          (shapeCast S64x256x1088 x0 shapeCasts_S64x256x64x17_S64x256x1088) n d q)
    (hL : L = Cert.ReferenceIdeal.Read.val_main_v18 (F := Ideal) x0 x1 x2 x3 x8)
    (hvar : ∀ k : Fin 4352, (0 : EReal) ≤ x7 (ix1 k)) :
    shapeCast S64x256x64x17 A shapeCasts_S64x256x1088_S64x256x64x17
      = Cert.ReferenceIdeal.Read.val_main_v42 (F := Ideal) x0 x1 x2 x3 x4 x5 x6 x7 x8 x9 := by
  funext j
  obtain ⟨n, d, t, v, rfl⟩ : ∃ (n : Fin 64) (d : Fin 256) (t : Fin 64) (v : Fin 17), j = ix4 n d t v :=
    ⟨j 0, j 1, j 2, j 3, eq_ix4 j⟩
  refine (result_cut_at A n d t v).trans ?_
  refine (hA n d _).trans ?_
  refine (bnAt_merged _ _ _ _ _ _ n d t v _).trans ?_
  rw [rows4_at, tableOf_at, tableOf_at, tableOf_at, tableOf_at, input_flat_at, hL, back_rows,
    Cert.Pre_finite_inputs.Domain.scale_eq _ _ (hvar _)]
  exact (Cert.ReferenceIdeal.RefValue.out_at x0 x1 x2 x3 x4 x5 x6 x7 x8 x9 n d t v).symm

end Cert.Bridge
end
-- ==== Proof.lean ====
/-
  The certificate of the shift-graph-convolution block: the Pallas program (two grid computations among host
  operations) against its jnp reference, over the extended reals.

  Both programs transpose the input to (sample, frame, joint, channel), gather the (joint, channel) columns through
  the input shift table, multiply by the gate tanh(mask) + 1, contract the channels with the weight matrix, add the
  bias, gather the columns again through the output shift table, apply the batch-norm affine map per (joint,
  channel), return to (sample, channel, frame, joint), add the input and clamp at zero. The kernel program does the
  gated product in its first grid computation, one block of 4352 rows per point, and the affine map, the residual
  and the clamp in its second, two samples per point, with the parameters laid out as (channel, frame·17 + joint)
  tables. The two gathers are the same host operation on both sides and stay closed; what is proved is that the
  arrays going into them agree entry by entry, and that the closing stage agrees entry by entry. The one place where
  the two texts differ as formulas is the scale: γ · (σ² + ε)^(-1/2) in the kernel, γ / √(σ² + ε) in the reference.
  On the extended reals these differ when σ² + ε ≤ 0 (a negative number has no square root there), so the
  precondition asks σ² ≥ 0; then σ² + ε is a positive real or +∞ and the two scales are equal.

  The three frames are the generated ones (the reference's is its generated run with the result dropped); the
  idealization rewrote nothing, so that conjunct is trivial.
-/
import proofs.«142541_j8495445311793_2_alg».proof.Defs
import proofs.«142541_j8495445311793_2_alg».proof.Proof.Gen.Kernel
import proofs.«142541_j8495445311793_2_alg».proof.Proof.Gen.Kernel.Skeleton
import proofs.«142541_j8495445311793_2_alg».proof.Proof.Gen.Kernel.Launch
import proofs.«142541_j8495445311793_2_alg».proof.Proof.Gen.Kernel.Points
import proofs.«142541_j8495445311793_2_alg».proof.Proof.Gen.Kernel.Frame
import proofs.«142541_j8495445311793_2_alg».proof.Proof.Gen.KernelIdeal
import proofs.«142541_j8495445311793_2_alg».proof.Proof.Gen.KernelIdeal.Skeleton
import proofs.«142541_j8495445311793_2_alg».proof.Proof.Gen.KernelIdeal.Launch
import proofs.«142541_j8495445311793_2_alg».proof.Proof.Gen.KernelIdeal.Points
import proofs.«142541_j8495445311793_2_alg».proof.Proof.Gen.KernelIdeal.Frame
import proofs.«142541_j8495445311793_2_alg».proof.Proof.Gen.ReferenceIdeal
import proofs.«142541_j8495445311793_2_alg».proof.Proof.Gen.ReferenceIdeal.Run
import proofs.«142541_j8495445311793_2_alg».proof.Proof.Gen.ReferenceIdeal.Read
import proofs.«142541_j8495445311793_2_alg».proof.Proof.Gen.Pre_finite_inputs
import proofs.«142541_j8495445311793_2_alg».proof.Proof.KRun
import proofs.«142541_j8495445311793_2_alg».proof.Proof.KHost
import proofs.«142541_j8495445311793_2_alg».proof.Proof.Region0
import proofs.«142541_j8495445311793_2_alg».proof.Proof.Region1
import proofs.«142541_j8495445311793_2_alg».proof.Proof.Domain
import proofs.«142541_j8495445311793_2_alg».proof.Proof.Bridge1
import proofs.«142541_j8495445311793_2_alg».proof.Proof.Bridge2
import Idealize.ShloMosaic.Adequacy
import Idealize.ShloMosaic.Init

noncomputable section

namespace Cert.Proof

open Idealize.ShloMosaic Idealize.ShloMosaic.TcCoe Idealize.SL.Sem

section KernelValue

open Cert.KernelIdeal Cert.KernelIdeal.Gen Cert.KernelIdeal.Whole Cert.KernelIdeal.Blocks

variable (m : (ℓ : Loc nD τ sig) → Buf (Elt Ideal) ℓ) (ρ : Dev nD → PrngReg)

/-- Under the precondition, what the five segments leave in the kernel program's result array is the reference's
    result stage of the same arguments: the first grid computation's array is the gated product (its value lemma at
    the first stretch's contents), so its flattening is the reference's linear stage; the second grid computation's
    array is the affine map of the gathered stage (its value lemma at the second stretch's contents), so its cut is
    the reference's result, the variances being nonnegative. -/
theorem kernel_value (hpre : Cert.Pre_KernelIdeal m) (c : Dev nD) :
    (W5 m ρ c (Proc.devRef .tc main_v47) : S64x256x64x17.Idx → EReal)
      = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (result_cut m ρ c).trans ?_
  refine Cert.Bridge.result_eq _
    (shapeCast S4096x4352
      (shapeCast S4096x17x256 ((dat0 (V1 m ρ) c).arrAt 4 cfg0.N) shapeCasts_S69632x256_S4096x17x256)
      shapeCasts_S4096x17x256_S4096x4352)
    _ _ _ _ _ _ _ _ _ _ (fun n d q => ?_) ?_ (fun k => ?_)
  · refine (region1_value (V3 m ρ) c n d q).trans ?_
    rw [entry1_rows m ρ c, entry1_gamma m ρ c, entry1_beta m ρ c, entry1_mean m ρ c, entry1_var m ρ c,
      entry1_input m ρ c]
  · exact Cert.Bridge.lin_stage_eq _ _ _ _ _ _ (fun R d => (region0_value (V1 m ρ) c R d).trans (by
      rw [entry0_rows m ρ c, entry0_gate m ρ c, entry0_weight m ρ c, entry0_bias m ρ c]))
  · exact Cert.Pre_finite_inputs.Domain.var_nonneg _ _ _ _ _ _ _ _ _ _ (hpre c) k

end KernelValue

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the reference's result stage of the kernel side's arguments in their result arrays: the
    kernel program's by its value above, the reference's by its generated run, the arguments agreeing. -/
theorem algebraic : Cert.algebraic_KernelIdeal_ReferenceIdeal := by
  intro m ρ m' ρ' hpre hagree
  refine ⟨fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (kernel_value m ρ hpre c), (h c).2⟩) (Cert.KernelIdeal.Whole.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v42_eq]
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
